-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x12288 : Shape := ⟨2, ![4096, 12288]⟩
abbrev S32x4096x128 : Shape := ⟨3, ![32, 4096, 128]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x12288 : S_.BroadcastsInDim S4096x12288 (![] : Fin 0 → Fin S4096x12288.rank)
  reducesTo_S4096x12288_S_d0_1 : S4096x12288.ReducesTo [0, 1] S_
  bcast_S_S32x4096x128 : S_.BroadcastsInDim S32x4096x128 (![] : Fin 0 → Fin S32x4096x128.rank)
  reducesTo_S32x4096x128_S_d0_1_2 : S32x4096x128.ReducesTo [0, 1, 2] S_

variable [Facts]

def fn_part1 {F : FTy → Type} [FloatOps F] (main_v13 : IVec S_ 1) (main_v16 : IVec S32x4096x128 1) : IVec S_ 1 :=
  let main_c_5 : IVec S_ 1 := constantI S_ 1 1#1
  let main_v17 : IVec S_ 1 := (fun x v => Host.reduce IntOp.andi x v reducesTo_S32x4096x128_S_d0_1_2 h_S_) main_v16 main_c_5
  let main_v18 : IVec S_ 1 := andi main_v13 main_v17
  main_v18

def fn {F : FTy → Type} [FloatOps F] (main_arg0 : FVec F S16x4096 .f32) (main_arg1 : FVec F S4096x12288 .f32) (main_arg2 : FVec F S32x4096x128 .f32) (main_arg3 : FVec F S32x4096x128 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x12288 .f32 := Host.absf main_arg1
  let main_cst_0 : FVec F S_ .f32 := constant S_ .f32 0x7F800000#32
  let main_v5 : FVec F S4096x12288 .f32 := broadcastInDim S4096x12288 ![] bcast_S_S4096x12288 main_cst_0
  let main_v6 : IVec S4096x12288 1 := cmpf .olt main_v4 main_v5
  let main_c_1 : IVec S_ 1 := constantI S_ 1 1#1
  let main_v7 : IVec S_ 1 := (fun x v => Host.reduce IntOp.andi x v reducesTo_S4096x12288_S_d0_1 h_S_) main_v6 main_c_1
  let main_v8 : IVec S_ 1 := andi main_v3 main_v7
  let main_v9 : FVec F S32x4096x128 .f32 := Host.absf main_arg2
  let main_cst_2 : FVec F S_ .f32 := constant S_ .f32 0x7F800000#32
  let main_v10 : FVec F S32x4096x128 .f32 := broadcastInDim S32x4096x128 ![] bcast_S_S32x4096x128 main_cst_2
  let main_v11 : IVec S32x4096x128 1 := cmpf .olt main_v9 main_v10
  let main_c_3 : IVec S_ 1 := constantI S_ 1 1#1
  let main_v12 : IVec S_ 1 := (fun x v => Host.reduce IntOp.andi x v reducesTo_S32x4096x128_S_d0_1_2 h_S_) main_v11 main_c_3
  let main_v13 : IVec S_ 1 := andi main_v8 main_v12
  let main_v14 : FVec F S32x4096x128 .f32 := Host.absf main_arg3
  let main_cst_4 : FVec F S_ .f32 := constant S_ .f32 0x7F800000#32
  let main_v15 : FVec F S32x4096x128 .f32 := broadcastInDim S32x4096x128 ![] bcast_S_S32x4096x128 main_cst_4
  let main_v16 : IVec S32x4096x128 1 := cmpf .olt main_v14 main_v15
  fn_part1 (F := F) main_v13 main_v16
-- ==== Kernel.lean ====
abbrev S16x4096 : Shape := ⟨2, ![16, 4096]⟩
abbrev S4096x12288 : Shape := ⟨2, ![4096, 12288]⟩
abbrev S32x4096x128 : Shape := ⟨3, ![32, 4096, 128]⟩
abbrev S16x12288 : Shape := ⟨2, ![16, 12288]⟩
abbrev S16x256 : Shape := ⟨2, ![16, 256]⟩
abbrev S256x6144 : Shape := ⟨2, ![256, 6144]⟩
abbrev S16x6144 : Shape := ⟨2, ![16, 6144]⟩
abbrev S16x32x128 : Shape := ⟨3, ![16, 32, 128]⟩
abbrev S32x16x128 : Shape := ⟨3, ![32, 16, 128]⟩
abbrev S2x16x128 : Shape := ⟨3, ![2, 16, 128]⟩
abbrev S2x4096x128 : Shape := ⟨3, ![2, 4096, 128]⟩
abbrev S2x16x4096 : Shape := ⟨3, ![2, 16, 4096]⟩
abbrev S2x16 : Shape := ⟨2, ![2, 16]⟩
abbrev S2x16x1 : Shape := ⟨3, ![2, 16, 1]⟩

abbrev nBuf : Space → Nat
  | .hbm => 17
  | .vmem => 18
  | .smem => 0
  | _ => 0

abbrev bufTy : (tb : Table) → Fin (tcTables nBuf tb) → BufTy
  | .hbm, ⟨0, _⟩ => ⟨S16x4096, .f32⟩
  | .hbm, ⟨1, _⟩ => ⟨S4096x12288, .f32⟩
  | .hbm, ⟨2, _⟩ => ⟨S32x4096x128, .f32⟩
  | .hbm, ⟨3, _⟩ => ⟨S32x4096x128, .f32⟩
  | .hbm, ⟨4, _⟩ => ⟨S16x12288, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x32x128, .f32⟩
  | .hbm, ⟨9, _⟩ => ⟨S32x16x128, .f32⟩
  | .hbm, ⟨10, _⟩ => ⟨S16x32x128, .f32⟩
  | .hbm, ⟨11, _⟩ => ⟨S32x16x128, .f32⟩
  | .hbm, ⟨12, _⟩ => ⟨S16x32x128, .f32⟩
  | .hbm, ⟨13, _⟩ => ⟨S32x16x128, .f32⟩
  | .hbm, ⟨14, _⟩ => ⟨S32x16x128, .f32⟩
  | .hbm, ⟨15, _⟩ => ⟨S16x32x128, .f32⟩
  | .hbm, ⟨16, _⟩ => ⟨S16x4096, .f32⟩
  | .local _ .vmem, ⟨0, _⟩ => ⟨S16x256, .f32⟩
  | .local _ .vmem, ⟨1, _⟩ => ⟨S16x256, .f32⟩
  | .local _ .vmem, ⟨2, _⟩ => ⟨S256x6144, .f32⟩
  | .local _ .vmem, ⟨3, _⟩ => ⟨S256x6144, .f32⟩
  | .local _ .vmem, ⟨4, _⟩ => ⟨S16x6144, .f32⟩
  | .local _ .vmem, ⟨5, _⟩ => ⟨S16x6144, .f32⟩
  | .local _ .vmem, ⟨6, _⟩ => ⟨S2x16x128, .f32⟩
  | .local _ .vmem, ⟨7, _⟩ => ⟨S2x16x128, .f32⟩
  | .local _ .vmem, ⟨8, _⟩ => ⟨S2x16x128, .f32⟩
  | .local _ .vmem, ⟨9, _⟩ => ⟨S2x16x128, .f32⟩
  | .local _ .vmem, ⟨10, _⟩ => ⟨S2x16x128, .f32⟩
  | .local _ .vmem, ⟨11, _⟩ => ⟨S2x16x128, .f32⟩
  | .local _ .vmem, ⟨12, _⟩ => ⟨S2x4096x128, .f32⟩
  | .local _ .vmem, ⟨13, _⟩ => ⟨S2x4096x128, .f32⟩
  | .local _ .vmem, ⟨14, _⟩ => ⟨S2x4096x128, .f32⟩
  | .local _ .vmem, ⟨15, _⟩ => ⟨S2x4096x128, .f32⟩
  | .local _ .vmem, ⟨16, _⟩ => ⟨S2x16x128, .f32⟩
  | .local _ .vmem, ⟨17, _⟩ => ⟨S2x16x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S16x6144_S16x6144_0_0 : ∀ a, (![0, 0] : Fin 2 → Nat) a + S16x6144.size a ≤ S16x6144.size a
  h_S16x6144 : 0 < S16x6144.numel
  inb_S16x256_S16x256_0_0 : ∀ a, (![0, 0] : Fin 2 → Nat) a + S16x256.size a ≤ S16x256.size a
  h_S16x256 : 0 < S16x256.numel
  bitsLt_bf16_f32 : FTy.bits .bf16 < FTy.bits .f32
  inb_S256x6144_S256x6144_0_0 : ∀ a, (![0, 0] : Fin 2 → Nat) a + S256x6144.size a ≤ S256x6144.size a
  h_S256x6144 : 0 < S256x6144.numel
  shapeCasts_S16x6144_S16x6144 : S16x6144.ShapeCasts S16x6144
  slices_S16x12288_S16x4096_0_0 : S16x12288.Slices ![0, 0] S16x4096
  slices_S16x12288_S16x4096_0_4096 : S16x12288.Slices ![0, 4096] S16x4096
  slices_S16x12288_S16x4096_0_8192 : S16x12288.Slices ![0, 8192] S16x4096
  shapeCasts_S16x4096_S16x32x128 : S16x4096.ShapeCasts S16x32x128
  transposes_S16x32x128_S32x16x128_1_0_2 : S16x32x128.Transposes [1, 0, 2] S32x16x128
  inb_S2x16x128_S2x16x128_0_0_0 : ∀ a, (![0, 0, 0] : Fin 3 → Nat) a + S2x16x128.size a ≤ S2x16x128.size a
  h_S2x16x128 : 0 < S2x16x128.numel
  shapeCasts_S2x16x128_S2x16x128 : S2x16x128.ShapeCasts S2x16x128
  inb_S2x4096x128_S2x16x128_0_2048_0 : ∀ a, (![0, 2048, 0] : Fin 3 → Nat) a + S2x16x128.size a ≤ S2x4096x128.size a
  inb_S2x4096x128_S2x4096x128_0_0_0 : ∀ a, (![0, 0, 0] : Fin 3 → Nat) a + S2x4096x128.size a ≤ S2x4096x128.size a
  h_S2x4096x128 : 0 < S2x4096x128.numel
  reduces_S2x16x4096_S2x16 : S2x16x4096.Reduces [2] S2x16
  shapeCasts_S2x16_S2x16x1 : S2x16.ShapeCasts S2x16x1
  broadcasts_S2x16x1_S2x16x4096 : S2x16x1.Broadcasts S2x16x4096
  transposes_S32x16x128_S16x32x128_1_0_2 : S32x16x128.Transposes [1, 0, 2] S16x32x128
  shapeCasts_S16x32x128_S16x4096 : S16x32x128.ShapeCasts S16x4096
  dot_S16x256_S256x6144_S16x6144_1_0_0_1_n_n_wf : DotDims.WF S16x256 S256x6144 S16x6144 [1] [0] [0] [1] [] []
  dot_S2x16x128_S2x4096x128_S2x16x4096_2_2_1_1_0_0_wf : DotDims.WF S2x16x128 S2x4096x128 S2x16x4096 [2] [2] [1] [1] [0] [0]
  dot_S2x16x4096_S2x4096x128_S2x16x128_2_1_1_2_0_0_wf : DotDims.WF S2x16x4096 S2x4096x128 S2x16x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S16x4096.size a
  hwx0_0 : ∀ i : grid0.Coords, EltTy.bits .f32 = 32 ∨ (Rect.block (s := S16x4096) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6144.size a ≤ S4096x12288.size a
  hwx0_1 : ∀ i : grid0.Coords, EltTy.bits .f32 = 32 ∨ (Rect.block (s := S4096x12288) S256x6144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x6144.size a ≤ S16x12288.size a
  hwx0_2 : ∀ i : grid0.Coords, EltTy.bits .f32 = 32 ∨ (Rect.block (s := S16x12288) S16x6144.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x16x128.size a ≤ S32x16x128.size a
  hwx1_0 : ∀ i : grid1.Coords, EltTy.bits .f32 = 32 ∨ (Rect.block (s := S32x16x128) S2x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x16x128.size a ≤ S32x16x128.size a
  hwx1_1 : ∀ i : grid1.Coords, EltTy.bits .f32 = 32 ∨ (Rect.block (s := S32x16x128) S2x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x16x128.size a ≤ S32x16x128.size a
  hwx1_2 : ∀ i : grid1.Coords, EltTy.bits .f32 = 32 ∨ (Rect.block (s := S32x16x128) S2x16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x4096x128.size a ≤ S32x4096x128.size a
  hwx1_3 : ∀ i : grid1.Coords, EltTy.bits .f32 = 32 ∨ (Rect.block (s := S32x4096x128) S2x4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x4096x128.size a ≤ S32x4096x128.size a
  hwx1_4 : ∀ i : grid1.Coords, EltTy.bits .f32 = 32 ∨ (Rect.block (s := S32x4096x128) S2x4096x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x16x128.size a ≤ S32x16x128.size a
  hwx1_5 : ∀ i : grid1.Coords, EltTy.bits .f32 = 32 ∨ (Rect.block (s := S32x16x128) S2x16x128.size (cc1_transform_5 i) (hinb1_5 i)).WholeWords (EltTy.packing .f32)

variable [Facts₀]

def dot_S16x256_S256x6144_S16x6144_1_0_0_1_n_n : DotDims S16x256 S256x6144 S16x6144 where
  lhsContracting := [1]
  rhsContracting := [0]
  lhsNonContracting := [0]
  rhsNonContracting := [1]
  lhsBatch := []
  rhsBatch := []
  wf := dot_S16x256_S256x6144_S16x6144_1_0_0_1_n_n_wf
def dot_S2x16x128_S2x4096x128_S2x16x4096_2_2_1_1_0_0 : DotDims S2x16x128 S2x4096x128 S2x16x4096 where
  lhsContracting := [2]
  rhsContracting := [2]
  lhsNonContracting := [1]
  rhsNonContracting := [1]
  lhsBatch := [0]
  rhsBatch := [0]
  wf := dot_S2x16x128_S2x4096x128_S2x16x4096_2_2_1_1_0_0_wf
def dot_S2x16x4096_S2x4096x128_S2x16x128_2_1_1_2_0_0 : DotDims S2x16x4096 S2x4096x128 S2x16x128 where
  lhsContracting := [2]
  rhsContracting := [1]
  lhsNonContracting := [1]
  rhsNonContracting := [2]
  lhsBatch := [0]
  rhsBatch := [0]
  wf := dot_S2x16x4096_S2x4096x128_S2x16x128_2_1_1_2_0_0_wf

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x6144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x6144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S2x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2x16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2x4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S2x4096x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S2x16x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x4096 : Shape := ⟨2, ![16, 4096]⟩
abbrev S4096x12288 : Shape := ⟨2, ![4096, 12288]⟩
abbrev S32x4096x128 : Shape := ⟨3, ![32, 4096, 128]⟩
abbrev S16x12288 : Shape := ⟨2, ![16, 12288]⟩
abbrev S16x32x128 : Shape := ⟨3, ![16, 32, 128]⟩
abbrev S32x16x128 : Shape := ⟨3, ![32, 16, 128]⟩
abbrev S_ : Shape := ⟨0, ![]⟩
abbrev S1 : Shape := ⟨1, ![1]⟩
abbrev S32x16x4096 : Shape := ⟨3, ![32, 16, 4096]⟩
abbrev S32x16 : Shape := ⟨2, ![32, 16]⟩
abbrev S32x16x1 : Shape := ⟨3, ![32, 16, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x12288, .f32⟩
  | .hbm, ⟨2, _⟩ => ⟨S32x4096x128, .f32⟩
  | .hbm, ⟨3, _⟩ => ⟨S32x4096x128, .f32⟩
  | .hbm, ⟨4, _⟩ => ⟨S16x12288, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x32x128, .f32⟩
  | .hbm, ⟨9, _⟩ => ⟨S32x16x128, .f32⟩
  | .hbm, ⟨10, _⟩ => ⟨S16x32x128, .f32⟩
  | .hbm, ⟨11, _⟩ => ⟨S32x16x128, .f32⟩
  | .hbm, ⟨12, _⟩ => ⟨S16x32x128, .f32⟩
  | .hbm, ⟨13, _⟩ => ⟨S32x16x128, .f32⟩
  | .hbm, ⟨14, _⟩ => ⟨S_, .i32⟩
  | .hbm, ⟨15, _⟩ => ⟨S1, .i32⟩
  | .hbm, ⟨16, _⟩ => ⟨S32x4096x128, .f32⟩
  | .hbm, ⟨17, _⟩ => ⟨S_, .i32⟩
  | .hbm, ⟨18, _⟩ => ⟨S1, .i32⟩
  | .hbm, ⟨19, _⟩ => ⟨S32x4096x128, .f32⟩
  | .hbm, ⟨20, _⟩ => ⟨S32x16x4096, .f32⟩
  | .hbm, ⟨21, _⟩ => ⟨S32x16x4096, .f32⟩
  | .hbm, ⟨22, _⟩ => ⟨S_, .f32⟩
  | .hbm, ⟨23, _⟩ => ⟨S32x16, .f32⟩
  | .hbm, ⟨24, _⟩ => ⟨S32x16x1, .f32⟩
  | .hbm, ⟨25, _⟩ => ⟨S32x16x4096, .f32⟩
  | .hbm, ⟨26, _⟩ => ⟨S32x16x4096, .f32⟩
  | .hbm, ⟨27, _⟩ => ⟨S32x16x128, .f32⟩
  | .hbm, ⟨28, _⟩ => ⟨S16x32x128, .f32⟩
  | .hbm, ⟨29, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  slices_S16x12288_S16x4096_0_0 : S16x12288.Slices ![0, 0] S16x4096
  slices_S16x12288_S16x4096_0_4096 : S16x12288.Slices ![0, 4096] S16x4096
  slices_S16x12288_S16x4096_0_8192 : S16x12288.Slices ![0, 8192] S16x4096
  shapeCasts_S16x4096_S16x32x128 : S16x4096.ShapeCasts S16x32x128
  transposes_S16x32x128_S32x16x128_1_0_2 : S16x32x128.Transposes [1, 0, 2] S32x16x128
  bcast_S_S1 : S_.BroadcastsInDim S1 (![] : Fin 0 → Fin S1.rank)
  reducesTo_S32x16x4096_S32x16_d2 : S32x16x4096.ReducesTo [2] S32x16
  h_S_ : 0 < S_.numel
  bcast_S32x16_S32x16x1_0_1 : S32x16.BroadcastsInDim S32x16x1 (![0, 1] : Fin 2 → Fin S32x16x1.rank)
  bcast_S32x16x1_S32x16x4096_0_1_2 : S32x16x1.BroadcastsInDim S32x16x4096 (![0, 1, 2] : Fin 3 → Fin S32x16x4096.rank)
  transposes_S32x16x128_S16x32x128_1_0_2 : S32x16x128.Transposes [1, 0, 2] S16x32x128
  shapeCasts_S16x32x128_S16x4096 : S16x32x128.ShapeCasts S16x4096
  dot_S16x4096_S4096x12288_S16x12288_1_0_0_1_n_n_wf : DotDims.WF S16x4096 S4096x12288 S16x12288 [1] [0] [0] [1] [] []
  scatter_S32x4096x128_S1_S32x16x128_012_n_1_0_wf : ScatterDims.WF S32x4096x128 S1 S32x16x128 [0, 1, 2] [] [1] 0
  dot_S32x16x128_S32x4096x128_S32x16x4096_2_2_1_1_0_0_wf : DotDims.WF S32x16x128 S32x4096x128 S32x16x4096 [2] [2] [1] [1] [0] [0]
  dot_S32x16x4096_S32x4096x128_S32x16x128_2_1_1_2_0_0_wf : DotDims.WF S32x16x4096 S32x4096x128 S32x16x128 [2] [1] [1] [2] [0] [0]

variable [Facts₀]

def dot_S16x4096_S4096x12288_S16x12288_1_0_0_1_n_n : DotDims S16x4096 S4096x12288 S16x12288 where
  lhsContracting := [1]
  rhsContracting := [0]
  lhsNonContracting := [0]
  rhsNonContracting := [1]
  lhsBatch := []
  rhsBatch := []
  wf := dot_S16x4096_S4096x12288_S16x12288_1_0_0_1_n_n_wf
def scatter_S32x4096x128_S1_S32x16x128_012_n_1_0 : ScatterDims S32x4096x128 S1 S32x16x128 where
  updateWindowDims := [0, 1, 2]
  insertedWindowDims := []
  scatterDimsToOperandDims := [1]
  indexVectorDim := 0
  wf := scatter_S32x4096x128_S1_S32x16x128_012_n_1_0_wf
def dot_S32x16x128_S32x4096x128_S32x16x4096_2_2_1_1_0_0 : DotDims S32x16x128 S32x4096x128 S32x16x4096 where
  lhsContracting := [2]
  rhsContracting := [2]
  lhsNonContracting := [1]
  rhsNonContracting := [1]
  lhsBatch := [0]
  rhsBatch := [0]
  wf := dot_S32x16x128_S32x4096x128_S32x16x4096_2_2_1_1_0_0_wf
def dot_S32x16x4096_S32x4096x128_S32x16x128_2_1_1_2_0_0 : DotDims S32x16x4096 S32x4096x128 S32x16x128 where
  lhsContracting := [2]
  rhsContracting := [1]
  lhsNonContracting := [1]
  rhsNonContracting := [2]
  lhsBatch := [0]
  rhsBatch := [0]
  wf := dot_S32x16x4096_S32x4096x128_S32x16x128_2_1_1_2_0_0_wf

class Facts : Prop extends Facts₀ where

variable [Facts]
-- ==== Proof.K.Region0.lean ====
/-
  The first region (the accumulated matrix product), the frame half: the proof data of its pipeline and the
  body obligation, at a parameter `V` for the buffers' contents when the region is entered.

  Grid point t has coordinates (t / 16, t % 16) = (column tile, inner tile). The body zeroes the output
  block's staging buffer at the first inner tile of a column tile, and at every point adds to it the product
  of the point's 16 × 256 block of X and 256 × 6144 block of W; the buffer is written back only after the
  sixteenth inner tile, so between two points of one column tile it holds what the point before left. What
  it holds after point n is therefore a recursion on n (`acc0`): the payload of the point's two input blocks
  over zero at a first tile, over the previous point's contents otherwise. The body is run once for each of
  the two cases over a symbolic point; which case a point is in is decided once over the grid.
-/
import proofs.«162865_j31731218382925_2_alg».proof.Proof.Gen.Kernel.Launch
import proofs.«162865_j31731218382925_2_alg».proof.Proof.Gen.Kernel.Skeleton
import proofs.«162865_j31731218382925_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# Region 0: the projection X · W, accumulated over the reduction axis

The grid is (j, k) with j < 2 the output-column tile and k < 16 the reduction tile; point t has
j = t / 16 and k = t % 16. The output block (0, j) stays in one staging buffer for the sixteen points
of a column tile: at k = 0 the body overwrites it with zeros, then at every k it replaces it by
buffer + x_k · w_k. So after point t the buffer holds the partial sum over the reduction tiles 0 … k,
which is the recursion acc0 below.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running sum -/

/-- What the output's staging buffer holds after the body at position n: the partial product of this
    point's blocks added to zero when the point opens a column tile (n % 16 = 0), and to what the
    point before left otherwise. -/
def acc0 (c : Dev nD) : (n : ℕ) → n < cfg0.N → Vec F S16x6144 .f32
  | 0, hn => Gen.k0_pay2 (iblk0 V c 0 ⟨0, hn⟩) (iblk0 V c 1 ⟨0, hn⟩) Gen.k0_pay1
  | n + 1, hn => Gen.k0_pay2 (iblk0 V c 0 ⟨n + 1, hn⟩) (iblk0 V c 1 ⟨n + 1, hn⟩)
      (if (n + 1) % 16 = 0 then Gen.k0_pay1 else acc0 c n (Nat.lt_of_succ_lt hn))

/-- The recursion, at a point of the grid. -/
theorem acc0_eq (c : Dev nD) (t : Fin cfg0.N) : acc0 V c t.val t.isLt = Gen.k0_pay2 (iblk0 V c 0 t) (iblk0 V c 1 t) (if t.val % 16 = 0 then Gen.k0_pay1 else acc0 V c (t.val - 1) (Nat.lt_of_le_of_lt (Nat.sub_le _ _) t.isLt)) := by
  obtain ⟨n, hn⟩ := t
  cases n with
  | zero => rw [acc0, if_pos (Nat.zero_mod _)]
  | succ n => rw [acc0]; rfl

/-! ## The pipeline's proof data -/

/-- The proof data of the projection's pipeline on core c: the arrays as the region finds them; after the
    body at point t each input's buffer at its block and the output's at the running sum; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The inputs' buffers before the body -/

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body's branch condition -/

/-- The condition of the body's conditional, from the grid coordinates: the reduction coordinate is zero. -/
abbrev cond0 (i : grid0.Coords) : Prop := (Scalar.cmpi .ne (Scalar.extui (Scalar.cmpi .eq (BitVec.ofNat 32 (i 1).val) 0#32)) 0#32) = 1#1

/-- It holds exactly at the points that open a column tile, decided over the grid. -/
theorem hcond0 : ∀ t : Fin cfg0.N, cond0 (grid0.coords t) ↔ t.val % 16 = 0 :=
  (by decide +kernel : ∀ t : Fin grid0.N, cond0 (grid0.coords t) ↔ t.val % 16 = 0)

/-- The zero offsets of a whole-buffer access, however they are spelt. -/
theorem hz2 : (![0, 0] : Fin 2 → Nat) = fun _ => 0 := by
  funext a; fin_cases a <;> rfl

set_option maxHeartbeats 1000000 in
/-- The body at a point that opens a column tile (the reduction coordinate is zero), on whole staging memrefs —
    the inputs' at contents x0, x1, the output's at anything: it zeroes the output's buffer, reads the zeros back and
    leaves the first partial product added to them. The last store covers the buffer, so the buffer reads as its payload. -/
theorem sound_kernel0_A (c : Dev nD) (E : Set ℕ) (i : grid0.Coords)
    (arg2 : Memref sig .tc .vmem S16x256 .f32) (harg2 : arg2.IsWhole) (arg3 : Memref sig .tc .vmem S256x6144 .f32) (harg3 : arg3.IsWhole)
    (arg4 : Memref sig .tc .vmem S16x6144 .f32) (harg4 : arg4.IsWhole) (hc : cond0 i)
    (x0 : Vec F S16x256 .f32) (x1 : Vec F S256x6144 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (Gen.k0_pay2 x0 x1 Gen.k0_pay1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz2 inb_S16x6144_S16x6144_0_0 y⟩)]
  rw [View.canon_cons_unit_zero hz2]
  simp only [View.readAt_eq_ld, View.ld_unit_zero (S := S16x256) hz2, View.ld_unit_zero (S := S256x6144) hz2]
  sl_unfold_run_names
  rw [View.readCov_unit_zero (S := S16x6144) _ hz2]

set_option maxHeartbeats 1000000 in
/-- The body at a point inside a column tile (the reduction coordinate is not zero), on whole staging memrefs —
    the inputs' at contents x0, x1, the output's at the running sum xo: no reset; it reads the running sum and leaves this
    point's partial product added to it. The one store covers the buffer, so the buffer reads as its payload. -/
theorem sound_kernel0_B (c : Dev nD) (E : Set ℕ) (i : grid0.Coords)
    (arg2 : Memref sig .tc .vmem S16x256 .f32) (harg2 : arg2.IsWhole) (arg3 : Memref sig .tc .vmem S256x6144 .f32) (harg3 : arg3.IsWhole)
    (arg4 : Memref sig .tc .vmem S16x6144 .f32) (harg4 : arg4.IsWhole) (hc : ¬cond0 i)
    (x0 : Vec F S16x256 .f32) (x1 : Vec F S256x6144 .f32) (xo : Vec F S16x6144 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (Gen.k0_pay2 x0 x1 xo)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz2 inb_S16x6144_S16x6144_0_0 y⟩)]
  rw [View.canon_cons_unit_zero hz2]
  simp only [View.readAt_eq_ld, View.ld_unit_zero (S := S16x256) hz2, View.ld_unit_zero (S := S256x6144) hz2,
    View.ld_unit_zero (S := S16x6144) hz2]

/-! ## The output's buffer before the body -/

/-- At a point inside a column tile the output's current staging buffer holds what the body left at the point
    before: the point is not the first, the buffer was not written back in between (it is written back only after the
    last reduction tile), the window is never idle and its blocks are whole. -/
theorem before0_2_B (c : Dev nD) (t : Fin cfg0.N) (h0 : ¬t.val % 16 = 0) (d) :
    (dat0 V c).before 2 t d = acc0 V c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the inputs' memrefs hold their blocks; the closed form of the condition says which case the
    point is in; inside a column tile the output's memref holds the running sum of the point before; so the case's
    triple applies and leaves the running sum of this point. The invariant passes through unread; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [acc0_eq V c t, if_pos h0]
    iintro ⟨HΦ, Ho, ⟨%d0, H0⟩, ⟨%d1, H1⟩, ⟨%d2, H2⟩⟩
    iapply (sound_kernel0_A c Set.univ (grid0.coords t) _ _ _ _ _ _ ((hcond0 t).mpr h0) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_B V c t h0]
    rw [acc0_eq V c t, if_neg h0]
    iintro ⟨HΦ, Ho, ⟨%d0, H0⟩, ⟨%d1, H1⟩, ⟨%d2, H2⟩⟩
    iapply (sound_kernel0_B c Set.univ (grid0.coords t) _ _ _ _ _ _ (fun h => h0 ((hcond0 t).mp h)) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 (the attention launch), the frame half: the proof data of its pipeline and the body obligation,
  at a parameter `V` for the TensorCore's buffer contents when the region is entered.

  The body first overwrites rows 2048..2063 of the two cache blocks' staging buffers with the new key / value
  blocks, then reads those buffers whole. Every input window is fetched at every point, so whatever the body
  leaves in an input window's staging buffer is read by nothing later: the proof data names it (`kc1`, `vc1`)
  and the output block is the attention payload over the overwritten caches.
-/
import proofs.«162865_j31731218382925_2_alg».proof.Proof.Gen.Kernel.Launch
import proofs.«162865_j31731218382925_2_alg».proof.Proof.Gen.Kernel.Skeleton
import proofs.«162865_j31731218382925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in each buffer it writes -/

/-- Rows 2048..2063 of a cache block's staging buffer: where the body stores the new block. -/
abbrev rNew : Rect S2x4096x128 := Rect.unit (s := S2x4096x128) ![0, 2048, 0] S2x16x128.size inb_S2x4096x128_S2x16x128_0_2048_0

/-- Window 3's staging buffer after the body: the cache_K block with rows 2048..2063 overwritten by the new key block. -/
def kc1 (c : Dev nD) (t : Fin cfg1.N) : Vec F S2x4096x128 .f32 :=
  rNew.overlay (iblk1 V c 3 t) (k1_pay1 (iblk1 V c 1 t))

/-- Window 4's staging buffer after the body: the cache_V block with rows 2048..2063 overwritten by the new value block. -/
def vc1 (c : Dev nD) (t : Fin cfg1.N) : Vec F S2x4096x128 .f32 :=
  rNew.overlay (iblk1 V c 4 t) (k1_pay2 (iblk1 V c 2 t))

/-- Window 5's staging buffer after the body: the attention payload of the query block over the overwritten caches. -/
def out1 (c : Dev nD) (t : Fin cfg1.N) : Vec F S2x16x128 .f32 :=
  k1_pay3 (iblk1 V c 0 t) (kc1 V c t) (vc1 V c t)

/-! ## The pipeline's proof data -/

/-- The proof data of the attention pipeline on core `c`: the arrays as the region finds them; after the body at point
    `t` the three small inputs' buffers at their blocks, each cache block's at the block with the new rows written in, the
    output's at the attention payload; the invariant the scoped rest and the generator register, untouched; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => kc1 V c t
    | ⟨4, _⟩ => vc1 V c t
    | ⟨5, _⟩ => out1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = kc1 V c t := by dsimp only [dat1]
theorem after1_4 (c : Dev nD) (t : Fin cfg1.N) : (dat1 V c).after 4 t = vc1 V c t := by dsimp only [dat1]
theorem after1_5 (c : Dev nD) (t : Fin cfg1.N) : (dat1 V c).after 5 t = out1 V c t := by dsimp only [dat1]

/-- The output block is the attention payload of the query block over the two overwritten cache blocks. -/
theorem out1_eq (c : Dev nD) (t : Fin cfg1.N) : out1 V c t = Gen.k1_pay3 (iblk1 V c 0 t) (kc1 V c t) (vc1 V c t) := by
  unfold out1; rfl

/-! ## One store over read contents -/

/-- What a buffer reads after ONE store through rectangle `r` over contents `f`: what `f` reads, the rectangle's part
    replaced by the payload. -/
theorem read_writes_one1 {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy, View.writes_nil]

theorem zeros1_3 : (![0, 0, 0] : Fin 3 → Nat) = fun _ => 0 := funext fun a => by fin_cases a <;> rfl

/-- The overwritten block at an index: the new block's row on rows 2048..2063, the old contents elsewhere. -/
theorem overlay_rNew_apply {α : Type} (X : S2x4096x128.Idx → α) (G : S2x16x128.Idx → α) (a : Fin 2) (s : Fin 4096) (d : Fin 128) :
    rNew.overlay X G (ix3 a s d) = if h : 2048 ≤ s.val ∧ s.val < 2064 then G (ix3 a ⟨s.val - 2048, by omega⟩ d) else X (ix3 a s d) := by
  by_cases h : 2048 ≤ s.val ∧ s.val < 2064
  · rw [dif_pos h]
    have e : (ix3 a s d : S2x4096x128.Idx) = rNew.emb (ix3 a ⟨s.val - 2048, by omega⟩ d) := by
      funext k; apply Fin.ext; rw [Rect.emb_apply]
      match k with
      | ⟨0, _⟩ => show a.val = 0 + 1 * a.val; omega
      | ⟨1, _⟩ => show s.val = 2048 + 1 * (s.val - 2048); omega
      | ⟨2, _⟩ => show d.val = 0 + 1 * d.val; omega
    rw [e, Rect.overlay_emb]
  · rw [dif_neg h]
    refine Rect.overlay_of_not_mem _ _ _ ?_
    rw [Rect.mem_set_unit]; intro hm
    have h1 := hm 1
    have h1' : 2048 ≤ s.val ∧ s.val < 2048 + 16 := h1
    omega

/-- The two identity shape casts of a stored block leave it as it is. -/
theorem k1_pay1_eq (x : Vec F S2x16x128 .f32) : k1_pay1 x = x := by
  unfold k1_pay1; simp only [shapeCast_self]
theorem k1_pay2_eq (x : Vec F S2x16x128 .f32) : k1_pay2 x = x := by
  unfold k1_pay2; simp only [shapeCast_self]

/-- The overwritten cache_K block, index by index: the new key block's row on rows 2048..2063, the fetched block elsewhere. -/
theorem kc1_apply (c : Dev nD) (t : Fin cfg1.N) (a : Fin 2) (s : Fin 4096) (d : Fin 128) :
    kc1 V c t (ix3 a s d) = if h : 2048 ≤ s.val ∧ s.val < 2064 then iblk1 V c 1 t (ix3 a ⟨s.val - 2048, by omega⟩ d) else iblk1 V c 3 t (ix3 a s d) := by
  unfold kc1
  rw [overlay_rNew_apply, k1_pay1_eq]

/-- The overwritten cache_V block, index by index. -/
theorem vc1_apply (c : Dev nD) (t : Fin cfg1.N) (a : Fin 2) (s : Fin 4096) (d : Fin 128) :
    vc1 V c t (ix3 a s d) = if h : 2048 ≤ s.val ∧ s.val < 2064 then iblk1 V c 2 t (ix3 a ⟨s.val - 2048, by omega⟩ d) else iblk1 V c 4 t (ix3 a s d) := by
  unfold vc1
  rw [overlay_rNew_apply, k1_pay2_eq]

/-! ## The body's triple -/

set_option maxHeartbeats 1000000 in
/-- The kernel body on whole staging memrefs, the inputs' at read contents `x0 … x4` and the output's at anything, runs to
    the continuation holding the three small inputs' as they were, each cache block's with rows 2048..2063 overwritten by
    the new block, and the output's at the attention payload over the overwritten caches. -/
theorem sound_kernel1 (c : Dev nD) (E : Set ℕ) (i : grid1.Coords)
    (arg1 : Memref sig .tc .vmem S2x16x128 .f32) (harg1 : arg1.IsWhole)
    (arg2 : Memref sig .tc .vmem S2x16x128 .f32) (harg2 : arg2.IsWhole)
    (arg3 : Memref sig .tc .vmem S2x16x128 .f32) (harg3 : arg3.IsWhole)
    (arg4 : Memref sig .tc .vmem S2x4096x128 .f32) (harg4 : arg4.IsWhole)
    (arg5 : Memref sig .tc .vmem S2x4096x128 .f32) (harg5 : arg5.IsWhole)
    (arg6 : Memref sig .tc .vmem S2x16x128 .f32) (harg6 : arg6.IsWhole)
    (x0 x1 x2 : Vec F S2x16x128 .f32) (x3 x4 : Vec F S2x4096x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (rNew.overlay x3 (k1_pay1 x1))
            ∗ owns (c : Thread nD τ) arg5 fullShare (rNew.overlay x4 (k1_pay2 x2))
            ∗ owns (c : Thread nD τ) arg6 fullShare (k1_pay3 x0 (rNew.overlay x3 (k1_pay1 x1)) (rNew.overlay x4 (k1_pay2 x2)))) -∗ K ⟨⟩))
      ⊢ wp frame (wpE (defs₀ (F := F)) Variants.none c none) E (cc1__attn_kernel i arg1 harg1 arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_one1]
    simp only [View.readAt_eq_ld, View.ld_unit_zero (S := S2x16x128) zeros1_3]
  isplitl [H4]
  · iexists _; isplitr
    swap; · iexact H4
    ipureintro
    sl_unfold_run_names
    rw [read_writes_one1]
    simp only [View.readAt_eq_ld, View.ld_unit_zero (S := S2x16x128) zeros1_3]
  iexists _; isplitr
  swap; · iexact H5
  ipureintro
  rw [View.read_writes_eq_canon _ _ _ (fun y => ⟨_, List.mem_singleton_self _, View.mem_set_unit_zero zeros1_3 inb_S2x16x128_S2x16x128_0_0_0 y⟩),
    View.canon_unit_zero zeros1_3]
  sl_unfold_run_names
  simp only [View.readAt_eq_ld, View.ld_unit_zero (S := S2x16x128) zeros1_3, View.ld_unit_zero (S := S2x4096x128) zeros1_3, read_writes_one1]

/-! ## What the body finds in each input window's buffer -/

/-- Every input window is fetched at every point, so its current staging buffer holds its block there whatever the body
    left at the point before. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1 kc1 vc1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the two-region program, at any float instance.

  Between two items of the program every buffer that outlives a region holds a known value, a fold from the
  launch memory: the first region leaves its three arrays at what its write-backs make of them (the two inputs
  as found, the product array at the accumulated blocks), the nine layout operations that follow are applied to
  that, the second region leaves its six arrays likewise (the five inputs as found — the rows its body writes go
  into staging copies only, never back —, the attention array at the flushed blocks), and the last two layout
  operations are applied to that. Each region is entered from "every such buffer at the boundary's value, the
  generator register at some state, nothing owed" and left at the next boundary's; the launch theorem for a list
  of segments then gives: every weakly fair execution terminates, and every final memory holds every such buffer
  at the last boundary's value. The argument arrays are read back through the fold to the launch memory.
-/
import proofs.«162865_j31731218382925_2_alg».proof.Proof.K.Region0
import proofs.«162865_j31731218382925_2_alg».proof.Proof.K.Region1
import proofs.«162865_j31731218382925_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' values at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first region: its arrays at what its write-backs leave, everything else as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the nine layout operations between the regions. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last two layout operations. -/
abbrev W4 : Dev nD → Valuation τ sig (Elt F) := fun c => StableHlo.after hostOps2 (W3 m ρ c)

/-! ## A buffer no item writes keeps its value -/

theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h
theorem W4_of (c : Dev nD) (r : Ref sig .tc) (h : r ∉ (hostOps2_W : List (Ref sig .tc))) :
    W4 m ρ c (Proc.devRef .tc r) = W3 m ρ c (Proc.devRef .tc r) :=
  StableHlo.after_of_writes_sub hostOps2 _ hostOps2_writes h

/-- The first two arguments are the first region's input arrays: found, never written back. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
/-- The caches bypass the first region. -/
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)

theorem W2_main_arg0 (c : Dev nD) : W2 m ρ c (Proc.devRef .tc main_arg0) = m ((c : Thread nD τ).loc main_arg0) :=
  (W2_of m ρ c main_arg0 (by decide)).trans (W1_main_arg0 m ρ c)
theorem W2_main_arg1 (c : Dev nD) : W2 m ρ c (Proc.devRef .tc main_arg1) = m ((c : Thread nD τ).loc main_arg1) :=
  (W2_of m ρ c main_arg1 (by decide)).trans (W1_main_arg1 m ρ c)
theorem W2_main_arg2 (c : Dev nD) : W2 m ρ c (Proc.devRef .tc main_arg2) = m ((c : Thread nD τ).loc main_arg2) :=
  (W2_of m ρ c main_arg2 (by decide)).trans (W1_main_arg2 m ρ c)
theorem W2_main_arg3 (c : Dev nD) : W2 m ρ c (Proc.devRef .tc main_arg3) = m ((c : Thread nD τ).loc main_arg3) :=
  (W2_of m ρ c main_arg3 (by decide)).trans (W1_main_arg3 m ρ c)

/-- The first two arguments bypass the second region; the caches are its input arrays: found, never written back. -/
theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_arr m ρ c 3).trans ((((dat1 (V2 m ρ) c).arrAt_in 3 rfl _).trans (A_eq1 (V2 m ρ) c 3)).trans (W2_main_arg2 m ρ c))
theorem W3_main_arg3 (c : Dev nD) : W3 m ρ c (Proc.devRef .tc main_arg3) = m ((c : Thread nD τ).loc main_arg3) :=
  (W3_arr m ρ c 4).trans ((((dat1 (V2 m ρ) c).arrAt_in 4 rfl _).trans (A_eq1 (V2 m ρ) c 4)).trans (W2_main_arg3 m ρ c))

theorem W4_main_arg0 (c : Dev nD) : W4 m ρ c (Proc.devRef .tc main_arg0) = m ((c : Thread nD τ).loc main_arg0) :=
  (W4_of m ρ c main_arg0 (by decide)).trans (W3_main_arg0 m ρ c)
theorem W4_main_arg1 (c : Dev nD) : W4 m ρ c (Proc.devRef .tc main_arg1) = m ((c : Thread nD τ).loc main_arg1) :=
  (W4_of m ρ c main_arg1 (by decide)).trans (W3_main_arg1 m ρ c)
theorem W4_main_arg2 (c : Dev nD) : W4 m ρ c (Proc.devRef .tc main_arg2) = m ((c : Thread nD τ).loc main_arg2) :=
  (W4_of m ρ c main_arg2 (by decide)).trans (W3_main_arg2 m ρ c)
theorem W4_main_arg3 (c : Dev nD) : W4 m ρ c (Proc.devRef .tc main_arg3) = m ((c : Thread nD τ).loc main_arg3) :=
  (W4_of m ρ c main_arg3 (by decide)).trans (W3_main_arg3 m ρ c)

/-! ## The proof data family and the thread state -/

abbrev adm : (p : Fin 2) → (pcfgs (F := F) p).Adm := fun p => (cfgs p).toPCfg_adm
/-- Each region's proof data at its entry values. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of layout operations as a segment from the boundary values `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every outliving buffer at `W0`, left at `W1`. Its arrays are split out of those
    buffers and put back at their exit values; the generator register goes into the invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every outliving buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final memory holds every buffer that outlives the regions at the last boundary's value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KI.Region0.lean ====
/-
  The first region (the accumulated matrix product), the frame half: the proof data of its pipeline and the
  body obligation, at a parameter `V` for the buffers' contents when the region is entered.

  Grid point t has coordinates (t / 16, t % 16) = (column tile, inner tile). The body zeroes the output
  block's staging buffer at the first inner tile of a column tile, and at every point adds to it the product
  of the point's 16 × 256 block of X and 256 × 6144 block of W; the buffer is written back only after the
  sixteenth inner tile, so between two points of one column tile it holds what the point before left. What
  it holds after point n is therefore a recursion on n (`acc0`): the payload of the point's two input blocks
  over zero at a first tile, over the previous point's contents otherwise. The body is run once for each of
  the two cases over a symbolic point; which case a point is in is decided once over the grid.
-/
import proofs.«162865_j31731218382925_2_alg».proof.Proof.Gen.KernelIdeal.Launch
import proofs.«162865_j31731218382925_2_alg».proof.Proof.Gen.KernelIdeal.Skeleton
import proofs.«162865_j31731218382925_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# Region 0: the projection X · W, accumulated over the reduction axis

The grid is (j, k) with j < 2 the output-column tile and k < 16 the reduction tile; point t has
j = t / 16 and k = t % 16. The output block (0, j) stays in one staging buffer for the sixteen points
of a column tile: at k = 0 the body overwrites it with zeros, then at every k it replaces it by
buffer + x_k · w_k. So after point t the buffer holds the partial sum over the reduction tiles 0 … k,
which is the recursion acc0 below.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running sum -/

/-- What the output's staging buffer holds after the body at position n: the partial product of this
    point's blocks added to zero when the point opens a column tile (n % 16 = 0), and to what the
    point before left otherwise. -/
def acc0 (c : Dev nD) : (n : ℕ) → n < cfg0.N → Vec F S16x6144 .f32
  | 0, hn => Gen.k0_pay2 (iblk0 V c 0 ⟨0, hn⟩) (iblk0 V c 1 ⟨0, hn⟩) Gen.k0_pay1
  | n + 1, hn => Gen.k0_pay2 (iblk0 V c 0 ⟨n + 1, hn⟩) (iblk0 V c 1 ⟨n + 1, hn⟩)
      (if (n + 1) % 16 = 0 then Gen.k0_pay1 else acc0 c n (Nat.lt_of_succ_lt hn))

/-- The recursion, at a point of the grid. -/
theorem acc0_eq (c : Dev nD) (t : Fin cfg0.N) : acc0 V c t.val t.isLt = Gen.k0_pay2 (iblk0 V c 0 t) (iblk0 V c 1 t) (if t.val % 16 = 0 then Gen.k0_pay1 else acc0 V c (t.val - 1) (Nat.lt_of_le_of_lt (Nat.sub_le _ _) t.isLt)) := by
  obtain ⟨n, hn⟩ := t
  cases n with
  | zero => rw [acc0, if_pos (Nat.zero_mod _)]
  | succ n => rw [acc0]; rfl

/-! ## The pipeline's proof data -/

/-- The proof data of the projection's pipeline on core c: the arrays as the region finds them; after the
    body at point t each input's buffer at its block and the output's at the running sum; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The inputs' buffers before the body -/

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body's branch condition -/

/-- The condition of the body's conditional, from the grid coordinates: the reduction coordinate is zero. -/
abbrev cond0 (i : grid0.Coords) : Prop := (Scalar.cmpi .ne (Scalar.extui (Scalar.cmpi .eq (BitVec.ofNat 32 (i 1).val) 0#32)) 0#32) = 1#1

/-- It holds exactly at the points that open a column tile, decided over the grid. -/
theorem hcond0 : ∀ t : Fin cfg0.N, cond0 (grid0.coords t) ↔ t.val % 16 = 0 :=
  (by decide +kernel : ∀ t : Fin grid0.N, cond0 (grid0.coords t) ↔ t.val % 16 = 0)

/-- The zero offsets of a whole-buffer access, however they are spelt. -/
theorem hz2 : (![0, 0] : Fin 2 → Nat) = fun _ => 0 := by
  funext a; fin_cases a <;> rfl

set_option maxHeartbeats 1000000 in
/-- The body at a point that opens a column tile (the reduction coordinate is zero), on whole staging memrefs —
    the inputs' at contents x0, x1, the output's at anything: it zeroes the output's buffer, reads the zeros back and
    leaves the first partial product added to them. The last store covers the buffer, so the buffer reads as its payload. -/
theorem sound_kernel0_A (c : Dev nD) (E : Set ℕ) (i : grid0.Coords)
    (arg2 : Memref sig .tc .vmem S16x256 .f32) (harg2 : arg2.IsWhole) (arg3 : Memref sig .tc .vmem S256x6144 .f32) (harg3 : arg3.IsWhole)
    (arg4 : Memref sig .tc .vmem S16x6144 .f32) (harg4 : arg4.IsWhole) (hc : cond0 i)
    (x0 : Vec F S16x256 .f32) (x1 : Vec F S256x6144 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (Gen.k0_pay2 x0 x1 Gen.k0_pay1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz2 inb_S16x6144_S16x6144_0_0 y⟩)]
  rw [View.canon_cons_unit_zero hz2]
  simp only [View.readAt_eq_ld, View.ld_unit_zero (S := S16x256) hz2, View.ld_unit_zero (S := S256x6144) hz2]
  sl_unfold_run_names
  rw [View.readCov_unit_zero (S := S16x6144) _ hz2]

set_option maxHeartbeats 1000000 in
/-- The body at a point inside a column tile (the reduction coordinate is not zero), on whole staging memrefs —
    the inputs' at contents x0, x1, the output's at the running sum xo: no reset; it reads the running sum and leaves this
    point's partial product added to it. The one store covers the buffer, so the buffer reads as its payload. -/
theorem sound_kernel0_B (c : Dev nD) (E : Set ℕ) (i : grid0.Coords)
    (arg2 : Memref sig .tc .vmem S16x256 .f32) (harg2 : arg2.IsWhole) (arg3 : Memref sig .tc .vmem S256x6144 .f32) (harg3 : arg3.IsWhole)
    (arg4 : Memref sig .tc .vmem S16x6144 .f32) (harg4 : arg4.IsWhole) (hc : ¬cond0 i)
    (x0 : Vec F S16x256 .f32) (x1 : Vec F S256x6144 .f32) (xo : Vec F S16x6144 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (Gen.k0_pay2 x0 x1 xo)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz2 inb_S16x6144_S16x6144_0_0 y⟩)]
  rw [View.canon_cons_unit_zero hz2]
  simp only [View.readAt_eq_ld, View.ld_unit_zero (S := S16x256) hz2, View.ld_unit_zero (S := S256x6144) hz2,
    View.ld_unit_zero (S := S16x6144) hz2]

/-! ## The output's buffer before the body -/

/-- At a point inside a column tile the output's current staging buffer holds what the body left at the point
    before: the point is not the first, the buffer was not written back in between (it is written back only after the
    last reduction tile), the window is never idle and its blocks are whole. -/
theorem before0_2_B (c : Dev nD) (t : Fin cfg0.N) (h0 : ¬t.val % 16 = 0) (d) :
    (dat0 V c).before 2 t d = acc0 V c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the inputs' memrefs hold their blocks; the closed form of the condition says which case the
    point is in; inside a column tile the output's memref holds the running sum of the point before; so the case's
    triple applies and leaves the running sum of this point. The invariant passes through unread; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [acc0_eq V c t, if_pos h0]
    iintro ⟨HΦ, Ho, ⟨%d0, H0⟩, ⟨%d1, H1⟩, ⟨%d2, H2⟩⟩
    iapply (sound_kernel0_A c Set.univ (grid0.coords t) _ _ _ _ _ _ ((hcond0 t).mpr h0) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_B V c t h0]
    rw [acc0_eq V c t, if_neg h0]
    iintro ⟨HΦ, Ho, ⟨%d0, H0⟩, ⟨%d1, H1⟩, ⟨%d2, H2⟩⟩
    iapply (sound_kernel0_B c Set.univ (grid0.coords t) _ _ _ _ _ _ (fun h => h0 ((hcond0 t).mp h)) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 (the attention launch), the frame half: the proof data of its pipeline and the body obligation,
  at a parameter `V` for the TensorCore's buffer contents when the region is entered.

  The body first overwrites rows 2048..2063 of the two cache blocks' staging buffers with the new key / value
  blocks, then reads those buffers whole. Every input window is fetched at every point, so whatever the body
  leaves in an input window's staging buffer is read by nothing later: the proof data names it (`kc1`, `vc1`)
  and the output block is the attention payload over the overwritten caches.
-/
import proofs.«162865_j31731218382925_2_alg».proof.Proof.Gen.KernelIdeal.Launch
import proofs.«162865_j31731218382925_2_alg».proof.Proof.Gen.KernelIdeal.Skeleton
import proofs.«162865_j31731218382925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in each buffer it writes -/

/-- Rows 2048..2063 of a cache block's staging buffer: where the body stores the new block. -/
abbrev rNew : Rect S2x4096x128 := Rect.unit (s := S2x4096x128) ![0, 2048, 0] S2x16x128.size inb_S2x4096x128_S2x16x128_0_2048_0

/-- Window 3's staging buffer after the body: the cache_K block with rows 2048..2063 overwritten by the new key block. -/
def kc1 (c : Dev nD) (t : Fin cfg1.N) : Vec F S2x4096x128 .f32 :=
  rNew.overlay (iblk1 V c 3 t) (k1_pay1 (iblk1 V c 1 t))

/-- Window 4's staging buffer after the body: the cache_V block with rows 2048..2063 overwritten by the new value block. -/
def vc1 (c : Dev nD) (t : Fin cfg1.N) : Vec F S2x4096x128 .f32 :=
  rNew.overlay (iblk1 V c 4 t) (k1_pay2 (iblk1 V c 2 t))

/-- Window 5's staging buffer after the body: the attention payload of the query block over the overwritten caches. -/
def out1 (c : Dev nD) (t : Fin cfg1.N) : Vec F S2x16x128 .f32 :=
  k1_pay3 (iblk1 V c 0 t) (kc1 V c t) (vc1 V c t)

/-! ## The pipeline's proof data -/

/-- The proof data of the attention pipeline on core `c`: the arrays as the region finds them; after the body at point
    `t` the three small inputs' buffers at their blocks, each cache block's at the block with the new rows written in, the
    output's at the attention payload; the invariant the scoped rest and the generator register, untouched; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => kc1 V c t
    | ⟨4, _⟩ => vc1 V c t
    | ⟨5, _⟩ => out1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = kc1 V c t := by dsimp only [dat1]
theorem after1_4 (c : Dev nD) (t : Fin cfg1.N) : (dat1 V c).after 4 t = vc1 V c t := by dsimp only [dat1]
theorem after1_5 (c : Dev nD) (t : Fin cfg1.N) : (dat1 V c).after 5 t = out1 V c t := by dsimp only [dat1]

/-- The output block is the attention payload of the query block over the two overwritten cache blocks. -/
theorem out1_eq (c : Dev nD) (t : Fin cfg1.N) : out1 V c t = Gen.k1_pay3 (iblk1 V c 0 t) (kc1 V c t) (vc1 V c t) := by
  unfold out1; rfl

/-! ## One store over read contents -/

/-- What a buffer reads after ONE store through rectangle `r` over contents `f`: what `f` reads, the rectangle's part
    replaced by the payload. -/
theorem read_writes_one1 {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy, View.writes_nil]

theorem zeros1_3 : (![0, 0, 0] : Fin 3 → Nat) = fun _ => 0 := funext fun a => by fin_cases a <;> rfl

/-- The overwritten block at an index: the new block's row on rows 2048..2063, the old contents elsewhere. -/
theorem overlay_rNew_apply {α : Type} (X : S2x4096x128.Idx → α) (G : S2x16x128.Idx → α) (a : Fin 2) (s : Fin 4096) (d : Fin 128) :
    rNew.overlay X G (ix3 a s d) = if h : 2048 ≤ s.val ∧ s.val < 2064 then G (ix3 a ⟨s.val - 2048, by omega⟩ d) else X (ix3 a s d) := by
  by_cases h : 2048 ≤ s.val ∧ s.val < 2064
  · rw [dif_pos h]
    have e : (ix3 a s d : S2x4096x128.Idx) = rNew.emb (ix3 a ⟨s.val - 2048, by omega⟩ d) := by
      funext k; apply Fin.ext; rw [Rect.emb_apply]
      match k with
      | ⟨0, _⟩ => show a.val = 0 + 1 * a.val; omega
      | ⟨1, _⟩ => show s.val = 2048 + 1 * (s.val - 2048); omega
      | ⟨2, _⟩ => show d.val = 0 + 1 * d.val; omega
    rw [e, Rect.overlay_emb]
  · rw [dif_neg h]
    refine Rect.overlay_of_not_mem _ _ _ ?_
    rw [Rect.mem_set_unit]; intro hm
    have h1 := hm 1
    have h1' : 2048 ≤ s.val ∧ s.val < 2048 + 16 := h1
    omega

/-- The two identity shape casts of a stored block leave it as it is. -/
theorem k1_pay1_eq (x : Vec F S2x16x128 .f32) : k1_pay1 x = x := by
  unfold k1_pay1; simp only [shapeCast_self]
theorem k1_pay2_eq (x : Vec F S2x16x128 .f32) : k1_pay2 x = x := by
  unfold k1_pay2; simp only [shapeCast_self]

/-- The overwritten cache_K block, index by index: the new key block's row on rows 2048..2063, the fetched block elsewhere. -/
theorem kc1_apply (c : Dev nD) (t : Fin cfg1.N) (a : Fin 2) (s : Fin 4096) (d : Fin 128) :
    kc1 V c t (ix3 a s d) = if h : 2048 ≤ s.val ∧ s.val < 2064 then iblk1 V c 1 t (ix3 a ⟨s.val - 2048, by omega⟩ d) else iblk1 V c 3 t (ix3 a s d) := by
  unfold kc1
  rw [overlay_rNew_apply, k1_pay1_eq]

/-- The overwritten cache_V block, index by index. -/
theorem vc1_apply (c : Dev nD) (t : Fin cfg1.N) (a : Fin 2) (s : Fin 4096) (d : Fin 128) :
    vc1 V c t (ix3 a s d) = if h : 2048 ≤ s.val ∧ s.val < 2064 then iblk1 V c 2 t (ix3 a ⟨s.val - 2048, by omega⟩ d) else iblk1 V c 4 t (ix3 a s d) := by
  unfold vc1
  rw [overlay_rNew_apply, k1_pay2_eq]

/-! ## The body's triple -/

set_option maxHeartbeats 1000000 in
/-- The kernel body on whole staging memrefs, the inputs' at read contents `x0 … x4` and the output's at anything, runs to
    the continuation holding the three small inputs' as they were, each cache block's with rows 2048..2063 overwritten by
    the new block, and the output's at the attention payload over the overwritten caches. -/
theorem sound_kernel1 (c : Dev nD) (E : Set ℕ) (i : grid1.Coords)
    (arg1 : Memref sig .tc .vmem S2x16x128 .f32) (harg1 : arg1.IsWhole)
    (arg2 : Memref sig .tc .vmem S2x16x128 .f32) (harg2 : arg2.IsWhole)
    (arg3 : Memref sig .tc .vmem S2x16x128 .f32) (harg3 : arg3.IsWhole)
    (arg4 : Memref sig .tc .vmem S2x4096x128 .f32) (harg4 : arg4.IsWhole)
    (arg5 : Memref sig .tc .vmem S2x4096x128 .f32) (harg5 : arg5.IsWhole)
    (arg6 : Memref sig .tc .vmem S2x16x128 .f32) (harg6 : arg6.IsWhole)
    (x0 x1 x2 : Vec F S2x16x128 .f32) (x3 x4 : Vec F S2x4096x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (rNew.overlay x3 (k1_pay1 x1))
            ∗ owns (c : Thread nD τ) arg5 fullShare (rNew.overlay x4 (k1_pay2 x2))
            ∗ owns (c : Thread nD τ) arg6 fullShare (k1_pay3 x0 (rNew.overlay x3 (k1_pay1 x1)) (rNew.overlay x4 (k1_pay2 x2)))) -∗ K ⟨⟩))
      ⊢ wp frame (wpE (defs₀ (F := F)) Variants.none c none) E (cc1__attn_kernel i arg1 harg1 arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_one1]
    simp only [View.readAt_eq_ld, View.ld_unit_zero (S := S2x16x128) zeros1_3]
  isplitl [H4]
  · iexists _; isplitr
    swap; · iexact H4
    ipureintro
    sl_unfold_run_names
    rw [read_writes_one1]
    simp only [View.readAt_eq_ld, View.ld_unit_zero (S := S2x16x128) zeros1_3]
  iexists _; isplitr
  swap; · iexact H5
  ipureintro
  rw [View.read_writes_eq_canon _ _ _ (fun y => ⟨_, List.mem_singleton_self _, View.mem_set_unit_zero zeros1_3 inb_S2x16x128_S2x16x128_0_0_0 y⟩),
    View.canon_unit_zero zeros1_3]
  sl_unfold_run_names
  simp only [View.readAt_eq_ld, View.ld_unit_zero (S := S2x16x128) zeros1_3, View.ld_unit_zero (S := S2x4096x128) zeros1_3, read_writes_one1]

/-! ## What the body finds in each input window's buffer -/

/-- Every input window is fetched at every point, so its current staging buffer holds its block there whatever the body
    left at the point before. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1 kc1 vc1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the two-region program, at any float instance.

  Between two items of the program every buffer that outlives a region holds a known value, a fold from the
  launch memory: the first region leaves its three arrays at what its write-backs make of them (the two inputs
  as found, the product array at the accumulated blocks), the nine layout operations that follow are applied to
  that, the second region leaves its six arrays likewise (the five inputs as found — the rows its body writes go
  into staging copies only, never back —, the attention array at the flushed blocks), and the last two layout
  operations are applied to that. Each region is entered from "every such buffer at the boundary's value, the
  generator register at some state, nothing owed" and left at the next boundary's; the launch theorem for a list
  of segments then gives: every weakly fair execution terminates, and every final memory holds every such buffer
  at the last boundary's value. The argument arrays are read back through the fold to the launch memory.
-/
import proofs.«162865_j31731218382925_2_alg».proof.Proof.KI.Region0
import proofs.«162865_j31731218382925_2_alg».proof.Proof.KI.Region1
import proofs.«162865_j31731218382925_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' values at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first region: its arrays at what its write-backs leave, everything else as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the nine layout operations between the regions. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last two layout operations. -/
abbrev W4 : Dev nD → Valuation τ sig (Elt F) := fun c => StableHlo.after hostOps2 (W3 m ρ c)

/-! ## A buffer no item writes keeps its value -/

theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h
theorem W4_of (c : Dev nD) (r : Ref sig .tc) (h : r ∉ (hostOps2_W : List (Ref sig .tc))) :
    W4 m ρ c (Proc.devRef .tc r) = W3 m ρ c (Proc.devRef .tc r) :=
  StableHlo.after_of_writes_sub hostOps2 _ hostOps2_writes h

/-- The first two arguments are the first region's input arrays: found, never written back. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
/-- The caches bypass the first region. -/
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)

theorem W2_main_arg0 (c : Dev nD) : W2 m ρ c (Proc.devRef .tc main_arg0) = m ((c : Thread nD τ).loc main_arg0) :=
  (W2_of m ρ c main_arg0 (by decide)).trans (W1_main_arg0 m ρ c)
theorem W2_main_arg1 (c : Dev nD) : W2 m ρ c (Proc.devRef .tc main_arg1) = m ((c : Thread nD τ).loc main_arg1) :=
  (W2_of m ρ c main_arg1 (by decide)).trans (W1_main_arg1 m ρ c)
theorem W2_main_arg2 (c : Dev nD) : W2 m ρ c (Proc.devRef .tc main_arg2) = m ((c : Thread nD τ).loc main_arg2) :=
  (W2_of m ρ c main_arg2 (by decide)).trans (W1_main_arg2 m ρ c)
theorem W2_main_arg3 (c : Dev nD) : W2 m ρ c (Proc.devRef .tc main_arg3) = m ((c : Thread nD τ).loc main_arg3) :=
  (W2_of m ρ c main_arg3 (by decide)).trans (W1_main_arg3 m ρ c)

/-- The first two arguments bypass the second region; the caches are its input arrays: found, never written back. -/
theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_arr m ρ c 3).trans ((((dat1 (V2 m ρ) c).arrAt_in 3 rfl _).trans (A_eq1 (V2 m ρ) c 3)).trans (W2_main_arg2 m ρ c))
theorem W3_main_arg3 (c : Dev nD) : W3 m ρ c (Proc.devRef .tc main_arg3) = m ((c : Thread nD τ).loc main_arg3) :=
  (W3_arr m ρ c 4).trans ((((dat1 (V2 m ρ) c).arrAt_in 4 rfl _).trans (A_eq1 (V2 m ρ) c 4)).trans (W2_main_arg3 m ρ c))

theorem W4_main_arg0 (c : Dev nD) : W4 m ρ c (Proc.devRef .tc main_arg0) = m ((c : Thread nD τ).loc main_arg0) :=
  (W4_of m ρ c main_arg0 (by decide)).trans (W3_main_arg0 m ρ c)
theorem W4_main_arg1 (c : Dev nD) : W4 m ρ c (Proc.devRef .tc main_arg1) = m ((c : Thread nD τ).loc main_arg1) :=
  (W4_of m ρ c main_arg1 (by decide)).trans (W3_main_arg1 m ρ c)
theorem W4_main_arg2 (c : Dev nD) : W4 m ρ c (Proc.devRef .tc main_arg2) = m ((c : Thread nD τ).loc main_arg2) :=
  (W4_of m ρ c main_arg2 (by decide)).trans (W3_main_arg2 m ρ c)
theorem W4_main_arg3 (c : Dev nD) : W4 m ρ c (Proc.devRef .tc main_arg3) = m ((c : Thread nD τ).loc main_arg3) :=
  (W4_of m ρ c main_arg3 (by decide)).trans (W3_main_arg3 m ρ c)

/-! ## The proof data family and the thread state -/

abbrev adm : (p : Fin 2) → (pcfgs (F := F) p).Adm := fun p => (cfgs p).toPCfg_adm
/-- Each region's proof data at its entry values. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of layout operations as a segment from the boundary values `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every outliving buffer at `W0`, left at `W1`. Its arrays are split out of those
    buffers and put back at their exit values; the generator register goes into the invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every outliving buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final memory holds every buffer that outlives the regions at the last boundary's value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  The function both programs compute, written once over coordinates on the extended reals.

  qkv = X · W (a sum over the 4096 inner coordinates); its three column bands of width 4096, read as
  [head, row, lane] with column = head · 128 + lane, are the queries and the new key and value rows; the
  cached keys and values are the caches with rows 2048 … 2063 replaced by the new rows; per head and query
  row the scores are the 128-term inner products against every cached key, the weights their exponentials
  divided by the exponentials' sum (no maximum subtracted, no scale), the result the weighted sum of the
  cached values; the output lays head and lane back out as one column.
-/
import Idealize.ShloMosaic.PureOps.Ideal
import Idealize.ShloMosaic.Lib.ValueIdx

noncomputable section

open scoped BigOperators

namespace Cert.Spec

open Idealize.ShloMosaic Idealize.ShloMosaic.ValueIdx

/-- Entry (m, n) of X · W. -/
def qkv (X : (⟨2, ![16, 4096]⟩ : Shape).Idx → EReal) (W : (⟨2, ![4096, 12288]⟩ : Shape).Idx → EReal)
    (m : Fin 16) (n : Fin 12288) : EReal :=
  ∑ k : Fin 4096, X (ix2 m k) * W (ix2 k n)

/-- The column band of X · W that starts at column `off`, read as [head, row, lane]. -/
def band (X : (⟨2, ![16, 4096]⟩ : Shape).Idx → EReal) (W : (⟨2, ![4096, 12288]⟩ : Shape).Idx → EReal)
    (off : ℕ) (hoff : off + 4096 ≤ 12288) (h : Fin 32) (m : Fin 16) (d : Fin 128) : EReal :=
  qkv X W m ⟨off + h.val * 128 + d.val, by have := h.isLt; have := d.isLt; omega⟩

/-- A cache [head, position, lane] with the sixteen positions from 2048 on replaced by new rows. -/
def upd {H : ℕ} (C : Fin H → Fin 4096 → Fin 128 → EReal) (new : Fin H → Fin 16 → Fin 128 → EReal)
    (h : Fin H) (s : Fin 4096) (d : Fin 128) : EReal :=
  if hs : 2048 ≤ s.val ∧ s.val < 2064 then new h ⟨s.val - 2048, by omega⟩ d else C h s d

/-- The score of query row m of head h against cached key s. -/
def score {H : ℕ} (q : Fin H → Fin 16 → Fin 128 → EReal) (kc : Fin H → Fin 4096 → Fin 128 → EReal)
    (h : Fin H) (m : Fin 16) (s : Fin 4096) : EReal :=
  ∑ e : Fin 128, q h m e * kc h s e

/-- Attention of head h, query row m, lane d: the exponentials of the scores, each divided by their sum
    (begun at zero), weighting the cached values. -/
def attn {H : ℕ} (q : Fin H → Fin 16 → Fin 128 → EReal) (kc vc : Fin H → Fin 4096 → Fin 128 → EReal)
    (h : Fin H) (m : Fin 16) (d : Fin 128) : EReal :=
  ∑ s : Fin 4096, Ideal.div (Ideal.exp (score q kc h m s)) (0 + ∑ s' : Fin 4096, Ideal.exp (score q kc h m s')) * vc h s d

/-- Attention of one head depends on that head's queries, keys and values only. -/
theorem attn_congr {H H' : ℕ} (q : Fin H → Fin 16 → Fin 128 → EReal) (kc vc : Fin H → Fin 4096 → Fin 128 → EReal)
    (q' : Fin H' → Fin 16 → Fin 128 → EReal) (kc' vc' : Fin H' → Fin 4096 → Fin 128 → EReal) (h : Fin H) (h' : Fin H')
    (hq : q h = q' h') (hk : kc h = kc' h') (hv : vc h = vc' h') (m : Fin 16) (d : Fin 128) :
    attn q kc vc h m d = attn q' kc' vc' h' m d := by
  unfold attn score; rw [hq, hk, hv]

/-- A [32, 4096, 128] array as a function of its coordinates. -/
def coords3 (C : (⟨3, ![32, 4096, 128]⟩ : Shape).Idx → EReal) (h : Fin 32) (s : Fin 4096) (d : Fin 128) : EReal := C (ix3 h s d)

/-- The attention output [head, row, lane] of the whole computation. -/
def heads (X : (⟨2, ![16, 4096]⟩ : Shape).Idx → EReal) (W : (⟨2, ![4096, 12288]⟩ : Shape).Idx → EReal)
    (K Vc : (⟨3, ![32, 4096, 128]⟩ : Shape).Idx → EReal) (h : Fin 32) (m : Fin 16) (d : Fin 128) : EReal :=
  attn (band X W 0 (by omega)) (upd (coords3 K) (band X W 4096 (by omega))) (upd (coords3 Vc) (band X W 8192 (by omega))) h m d

/-- The result [row, head · 128 + lane]. -/
def G (X : (⟨2, ![16, 4096]⟩ : Shape).Idx → EReal) (W : (⟨2, ![4096, 12288]⟩ : Shape).Idx → EReal)
    (K Vc : (⟨3, ![32, 4096, 128]⟩ : Shape).Idx → EReal) : (⟨2, ![16, 4096]⟩ : Shape).Idx → EReal := fun i =>
  heads X W K Vc ⟨(i 1).val / 128, by have := idx2_lt1 i; omega⟩ ⟨(i 0).val, idx2_lt0 i⟩ ⟨(i 1).val % 128, Nat.mod_lt _ (by omega)⟩

end Cert.Spec

end
-- ==== Proof.KI.Glue.lean ====
/-
  The layout operations around the two regions, read at an index.

  Between the regions the product array [16,12288] is cut into three column bands of width 4096, each reshaped
  to [16,32,128] (column = head · 128 + lane) and transposed to [32,16,128]: entry [head, row, lane] of a band is
  the product array at [row, offset + head · 128 + lane]. After the second region the attention array [32,16,128]
  is transposed back and flattened: entry [row, column] of the result is the attention array at
  [column / 128, row, column % 128]. None of this depends on the float instance.
-/
import proofs.«162865_j31731218382925_2_alg».proof.Proof.KI.Run
import proofs.«162865_j31731218382925_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]
/-- A column band of the product array, reshaped [16,32,128] and transposed to [32,16,128], read at
    [head, row, lane]: the product array at [row, off + head·128 + lane]. -/
theorem band_read {α : Type} (off : ℕ) (y : S16x12288.Idx → α) (hs : S16x12288.Slices ![0, off] S16x4096)
    (hoff : off + 4096 ≤ 12288) (h : Fin 32) (r : Fin 16) (e : Fin 128) :
    transpose S32x16x128 [1, 0, 2] (shapeCast S16x32x128 (extractStridedSlice S16x4096 ![0, off] y hs) Facts₀.shapeCasts_S16x4096_S16x32x128)
        Facts₀.transposes_S16x32x128_S32x16x128_1_0_2 (ix3 h r e)
      = y (ix2 r ⟨off + h.val * 128 + e.val, by have := h.isLt; have := e.isLt; omega⟩) := by
  refine (transpose_apply [1, 0, 2] _ Facts₀.transposes_S16x32x128_S32x16x128_1_0_2 (ix3 h r e) (ix3 r h e) (fun b => match b with
    | ⟨0, _⟩ => rfl
    | ⟨1, _⟩ => rfl
    | ⟨2, _⟩ => rfl)).trans ?_
  refine (shapeCast_apply _ Facts₀.shapeCasts_S16x4096_S16x32x128 (ix3 r h e) (ix2 r ⟨h.val * 128 + e.val, by have := h.isLt; have := e.isLt; omega⟩)
    (by rewrite [Shape.rowMajor_val_two, Shape.rowMajor_val_three]
        show r.val * 4096 + (h.val * 128 + e.val) = (r.val * 32 + h.val) * 128 + e.val
        omega)).trans ?_
  exact extractStridedSlice_apply ![0, off] y hs (ix2 r ⟨h.val * 128 + e.val, by have := h.isLt; have := e.isLt; omega⟩) (ix2 r ⟨off + h.val * 128 + e.val, by have := h.isLt; have := e.isLt; omega⟩) (fun a => match a with
    | ⟨0, _⟩ => by show r.val = 0 + r.val; omega
    | ⟨1, _⟩ => by show off + h.val * 128 + e.val = off + (h.val * 128 + e.val); omega)

/-- The attention array [32,16,128] transposed to [16,32,128] and flattened to [16,4096], read at [row, column]:
    the attention array at [column / 128, row, column % 128]. -/
theorem unband_read {α : Type} (y : S32x16x128.Idx → α) (r : Fin 16) (n : Fin 4096) :
    shapeCast S16x4096 (transpose S16x32x128 [1, 0, 2] y Facts₀.transposes_S32x16x128_S16x32x128_1_0_2) Facts₀.shapeCasts_S16x32x128_S16x4096 (ix2 r n)
      = y (ix3 ⟨n.val / 128, by have := n.isLt; omega⟩ r ⟨n.val % 128, Nat.mod_lt _ (by omega)⟩) := by
  refine (shapeCast_apply _ Facts₀.shapeCasts_S16x32x128_S16x4096 (ix2 r n) (ix3 r ⟨n.val / 128, by have := n.isLt; omega⟩ ⟨n.val % 128, Nat.mod_lt _ (by omega)⟩)
    (by rewrite [Shape.rowMajor_val_three, Shape.rowMajor_val_two]
        show (r.val * 32 + n.val / 128) * 128 + n.val % 128 = r.val * 4096 + n.val
        omega)).trans ?_
  exact transpose_apply [1, 0, 2] y Facts₀.transposes_S32x16x128_S16x32x128_1_0_2 _ _ (fun b => match b with
    | ⟨0, _⟩ => rfl
    | ⟨1, _⟩ => rfl
    | ⟨2, _⟩ => rfl)

section Layout
variable (m : (ℓ : Loc nD τ sig) → Buf (Elt F) ℓ) (ρ : Dev nD → PrngReg)

/-- What the nine layout operations leave in the three [32,16,128] arrays the second region reads, and the two
    last ones in the result: the operations' terms of the arrays the regions left. -/
theorem W2_v5 (c : Dev nD) : W2 m ρ c (Proc.devRef .tc main_v5)
    = transpose S32x16x128 [1, 0, 2] (shapeCast S16x32x128 (extractStridedSlice S16x4096 ![0, 0] (W1 m ρ c (Proc.devRef .tc main_v0)) Facts₀.slices_S16x12288_S16x4096_0_0) Facts₀.shapeCasts_S16x4096_S16x32x128) Facts₀.transposes_S16x32x128_S32x16x128_1_0_2 := by
  show StableHlo.after hostOps1 (W1 m ρ c) (Proc.devRef .tc main_v5) = _
  after_results
  rfl
theorem W2_v7 (c : Dev nD) : W2 m ρ c (Proc.devRef .tc main_v7)
    = transpose S32x16x128 [1, 0, 2] (shapeCast S16x32x128 (extractStridedSlice S16x4096 ![0, 4096] (W1 m ρ c (Proc.devRef .tc main_v0)) Facts₀.slices_S16x12288_S16x4096_0_4096) Facts₀.shapeCasts_S16x4096_S16x32x128) Facts₀.transposes_S16x32x128_S32x16x128_1_0_2 := by
  show StableHlo.after hostOps1 (W1 m ρ c) (Proc.devRef .tc main_v7) = _
  after_results
  rfl
theorem W2_v9 (c : Dev nD) : W2 m ρ c (Proc.devRef .tc main_v9)
    = transpose S32x16x128 [1, 0, 2] (shapeCast S16x32x128 (extractStridedSlice S16x4096 ![0, 8192] (W1 m ρ c (Proc.devRef .tc main_v0)) Facts₀.slices_S16x12288_S16x4096_0_8192) Facts₀.shapeCasts_S16x4096_S16x32x128) Facts₀.transposes_S16x32x128_S32x16x128_1_0_2 := by
  show StableHlo.after hostOps1 (W1 m ρ c) (Proc.devRef .tc main_v9) = _
  after_results
  rfl
theorem W4_v12 (c : Dev nD) : W4 m ρ c (Proc.devRef .tc main_v12)
    = shapeCast S16x4096 (transpose S16x32x128 [1, 0, 2] (W3 m ρ c (Proc.devRef .tc main_v10)) Facts₀.transposes_S32x16x128_S16x32x128_1_0_2) Facts₀.shapeCasts_S16x32x128_S16x4096 := by
  show StableHlo.after hostOps2 (W3 m ρ c) (Proc.devRef .tc main_v12) = _
  after_results
  rfl
end Layout

end Cert.KernelIdeal.Hand

end
-- ==== Proof.KI.Result.lean ====
/-
  The result array is the specification, given the two regions' arrays.

  At the ideal instance: if the first region leaves the product X · W in its output array (entry by entry the
  4096-term sum) and the second region leaves, head by head, the attention of the queries against the caches
  with the new rows written at 2048, then — the bands between them being the queries and the new rows, the
  caches reaching the second region as launched — the result array is the function `Cert.Spec.G` of the
  launch memory's four arguments.
-/
import proofs.«162865_j31731218382925_2_alg».proof.Proof.KI.Glue
import proofs.«162865_j31731218382925_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]

section Value
variable (m : (ℓ : Loc nD τ sig) → Buf (Elt Ideal) ℓ) (ρ : Dev nD → PrngReg)
variable (final0 : ∀ (V : (c : Dev nD) → (b : Ref sig .tc) → Buf (Elt Ideal) ((c : Thread nD τ).loc b)) (c : Dev nD) (p : Fin 16) (n : Fin 12288),
      (dat0 (F := Ideal) V c).arrAt 2 cfg0.N (ix2 p n) = Cert.Spec.qkv (V c main_arg0) (V c main_arg1) p n)
variable (final1 : ∀ (V : (c : Dev nD) → (b : Ref sig .tc) → Buf (Elt Ideal) ((c : Thread nD τ).loc b)) (c : Dev nD) (h : Fin 32) (r : Fin 16) (d : Fin 128),
      (dat1 (F := Ideal) V c).arrAt 5 cfg1.N (ix3 h r d)
        = Cert.Spec.attn (fun h r e => V c main_v5 (ix3 h r e))
            (Cert.Spec.upd (fun h s e => V c main_arg2 (ix3 h s e)) (fun h r e => V c main_v7 (ix3 h r e)))
            (Cert.Spec.upd (fun h s e => V c main_arg3 (ix3 h s e)) (fun h r e => V c main_v9 (ix3 h r e))) h r d)

include final0 in
theorem W1_v0 (c : Dev nD) (p : Fin 16) (n : Fin 12288) :
    W1 m ρ c (Proc.devRef .tc main_v0) (ix2 p n)
      = Cert.Spec.qkv (m ((c : Thread nD τ).loc main_arg0)) (m ((c : Thread nD τ).loc main_arg1)) p n :=
  (congrFun (W1_arr m ρ c 2) (ix2 p n)).trans (final0 (V0 m ρ) c p n)

include final0 in
theorem V2_band (c : Dev nD) (off : ℕ) (hoff : off + 4096 ≤ 12288) (hs : S16x12288.Slices ![0, off] S16x4096) (h : Fin 32) (r : Fin 16) (e : Fin 128) :
    transpose S32x16x128 [1, 0, 2] (shapeCast S16x32x128 (extractStridedSlice S16x4096 ![0, off] (W1 m ρ c (Proc.devRef .tc main_v0)) hs) Facts₀.shapeCasts_S16x4096_S16x32x128)
        Facts₀.transposes_S16x32x128_S32x16x128_1_0_2 (ix3 h r e)
      = Cert.Spec.band (m ((c : Thread nD τ).loc main_arg0)) (m ((c : Thread nD τ).loc main_arg1)) off hoff h r e :=
  (band_read off _ hs hoff h r e).trans (W1_v0 m ρ final0 c r _)

include final0 final1 in
/-- The result array after the run is the specification of the launch memory's arguments. -/
theorem W4_result (c : Dev nD) : W4 m ρ c (Proc.devRef .tc main_v12)
    = Cert.Spec.G (m ((c : Thread nD τ).loc main_arg0)) (m ((c : Thread nD τ).loc main_arg1)) (m ((c : Thread nD τ).loc main_arg2)) (m ((c : Thread nD τ).loc main_arg3)) := by
  funext i
  obtain ⟨r, n, rfl⟩ : ∃ (r : Fin 16) (n : Fin 4096), i = ix2 r n := ⟨i 0, i 1, eq_ix2 i⟩
  rw [W4_v12]
  refine (unband_read _ r n).trans ?_
  refine (congrFun (W3_arr m ρ c 5) _).trans ?_
  refine (final1 (V2 m ρ) c _ r _).trans ?_
  have e5 : (fun (h : Fin 32) (r : Fin 16) (e : Fin 128) => V2 m ρ c main_v5 (ix3 h r e))
      = Cert.Spec.band (m ((c : Thread nD τ).loc main_arg0)) (m ((c : Thread nD τ).loc main_arg1)) 0 (by omega) := by
    funext h r e; show W2 m ρ c (Proc.devRef .tc main_v5) (ix3 h r e) = _; rw [W2_v5]; exact V2_band m ρ final0 c 0 (by omega) _ h r e
  have e7 : (fun (h : Fin 32) (r : Fin 16) (e : Fin 128) => V2 m ρ c main_v7 (ix3 h r e))
      = Cert.Spec.band (m ((c : Thread nD τ).loc main_arg0)) (m ((c : Thread nD τ).loc main_arg1)) 4096 (by omega) := by
    funext h r e; show W2 m ρ c (Proc.devRef .tc main_v7) (ix3 h r e) = _; rw [W2_v7]; exact V2_band m ρ final0 c 4096 (by omega) _ h r e
  have e9 : (fun (h : Fin 32) (r : Fin 16) (e : Fin 128) => V2 m ρ c main_v9 (ix3 h r e))
      = Cert.Spec.band (m ((c : Thread nD τ).loc main_arg0)) (m ((c : Thread nD τ).loc main_arg1)) 8192 (by omega) := by
    funext h r e; show W2 m ρ c (Proc.devRef .tc main_v9) (ix3 h r e) = _; rw [W2_v9]; exact V2_band m ρ final0 c 8192 (by omega) _ h r e
  have eK : (fun (h : Fin 32) (s : Fin 4096) (e : Fin 128) => V2 m ρ c main_arg2 (ix3 h s e))
      = Cert.Spec.coords3 (m ((c : Thread nD τ).loc main_arg2)) := by
    funext h s e; exact congrFun (W2_main_arg2 m ρ c) _
  have eV : (fun (h : Fin 32) (s : Fin 4096) (e : Fin 128) => V2 m ρ c main_arg3 (ix3 h s e))
      = Cert.Spec.coords3 (m ((c : Thread nD τ).loc main_arg3)) := by
    funext h s e; exact congrFun (W2_main_arg3 m ρ c) _
  rw [e5, e7, e9, eK, eV]
  rfl
end Value

end Cert.KernelIdeal.Hand
end
-- ==== Proof.Acc0.lean ====
/-
  The first region's accumulator on the extended reals.

  One grid point of the first region adds to its output block the product of a 16 × 256 block of X and a
  256 × 6144 block of W; the output block starts from zero at the first of the sixteen inner tiles of a
  column tile. After the sixteenth the block holds, entry by entry, the whole 4096-term inner product: the
  sum over sixteen tiles of the sums over 256 inner coordinates is the sum over all 4096 of them.
-/
import proofs.«162865_j31731218382925_2_alg».proof.Proof.Gen.KernelIdeal.Skeleton
import proofs.«162865_j31731218382925_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The zero block read at an entry. -/
theorem pay1_apply (p : Fin 16) (r : Fin 6144) : Gen.k0_pay1 (F := Ideal) (ix2 p r) = 0 := by
  unfold Gen.k0_pay1
  exact Ideal.ofBits_zero_f32

/-- The coordinates of the operands' indices of the block product at an output entry (row, column) and a
    contraction index: the left operand is read at (row, contraction), the right at (contraction, column). -/
theorem lhs0_0 (i : S16x6144.Idx) (q : dot_S16x256_S256x6144_S16x6144_1_0_0_1_n_n.contr.Idx) :
    (dot_S16x256_S256x6144_S16x6144_1_0_0_1_n_n.lhsIdx i q 0).val = (i 0).val := by
  unfold DotDims.lhsIdx
  rw [dif_neg (show ¬(0 : Fin S16x256.rank) ∈ dot_S16x256_S256x6144_S16x6144_1_0_0_1_n_n.lhsBatch by decide), dif_pos (show (0 : Fin S16x256.rank) ∈ dot_S16x256_S256x6144_S16x6144_1_0_0_1_n_n.lhsNonContracting by decide)]
  rfl
theorem lhs0_1 (i : S16x6144.Idx) (q : dot_S16x256_S256x6144_S16x6144_1_0_0_1_n_n.contr.Idx) :
    (dot_S16x256_S256x6144_S16x6144_1_0_0_1_n_n.lhsIdx i q 1).val = (q ⟨0, by decide⟩).val :=
  dot_S16x256_S256x6144_S16x6144_1_0_0_1_n_n.lhsIdx_val_of_single rfl i q
theorem rhs0_0 (i : S16x6144.Idx) (q : dot_S16x256_S256x6144_S16x6144_1_0_0_1_n_n.contr.Idx) :
    (dot_S16x256_S256x6144_S16x6144_1_0_0_1_n_n.rhsIdx i q 0).val = (q ⟨0, by decide⟩).val :=
  dot_S16x256_S256x6144_S16x6144_1_0_0_1_n_n.rhsIdx_val_of_single rfl i q
theorem rhs0_1 (i : S16x6144.Idx) (q : dot_S16x256_S256x6144_S16x6144_1_0_0_1_n_n.contr.Idx) :
    (dot_S16x256_S256x6144_S16x6144_1_0_0_1_n_n.rhsIdx i q 1).val = (i 1).val := by
  unfold DotDims.rhsIdx
  rw [dif_neg (show ¬(1 : Fin S256x6144.rank) ∈ dot_S16x256_S256x6144_S16x6144_1_0_0_1_n_n.rhsBatch by decide), dif_pos (show (1 : Fin S256x6144.rank) ∈ dot_S16x256_S256x6144_S16x6144_1_0_0_1_n_n.rhsNonContracting by decide)]
  rfl

/-- The block product read at an entry: the 256-term inner product of a row of the left block and a column
    of the right block. -/
theorem mm0_apply (x : FVec Ideal S16x256 .bf16) (w : FVec Ideal S256x6144 .bf16) (p : Fin 16) (r : Fin 6144) :
    FloatOps.matmul dot_S16x256_S256x6144_S16x6144_1_0_0_1_n_n none x w (constant S16x6144 .f32 0x00000000#32) (ix2 p r)
      = ∑ q : Fin 256, x (ix2 p q) * w (ix2 q r) := by
  rw [Ideal.matmul_constant_zero_apply, ← Equiv.sum_comp (ValueIdx.contrEquiv1 dot_S16x256_S256x6144_S16x6144_1_0_0_1_n_n 256 rfl rfl).symm]
  refine Finset.sum_congr rfl fun k _ => ?_
  have hk := ValueIdx.contrEquiv1_symm_val dot_S16x256_S256x6144_S16x6144_1_0_0_1_n_n 256 rfl rfl k
  have el : dot_S16x256_S256x6144_S16x6144_1_0_0_1_n_n.lhsIdx (ix2 p r) ((ValueIdx.contrEquiv1 dot_S16x256_S256x6144_S16x6144_1_0_0_1_n_n 256 rfl rfl).symm k) = ix2 p k := funext fun a => Fin.ext (by
    match a with
    | ⟨0, _⟩ => exact lhs0_0 _ _
    | ⟨1, _⟩ => exact (lhs0_1 _ _).trans hk)
  have er : dot_S16x256_S256x6144_S16x6144_1_0_0_1_n_n.rhsIdx (ix2 p r) ((ValueIdx.contrEquiv1 dot_S16x256_S256x6144_S16x6144_1_0_0_1_n_n 256 rfl rfl).symm k) = ix2 k r := funext fun a => Fin.ext (by
    match a with
    | ⟨0, _⟩ => exact (rhs0_0 _ _).trans hk
    | ⟨1, _⟩ => exact rhs0_1 _ _)
  rw [el, er]

/-- One step of the accumulation read at an entry: the old entry plus the block product's. -/
theorem pay2_apply (x : Vec Ideal S16x256 .f32) (w : Vec Ideal S256x6144 .f32) (a : Vec Ideal S16x6144 .f32)
    (p : Fin 16) (r : Fin 6144) :
    Gen.k0_pay2 x w a (ix2 p r) = a (ix2 p r) + ∑ q : Fin 256, x (ix2 p q) * w (ix2 q r) := by
  unfold Gen.k0_pay2
  refine (addf_apply _ _ _).trans ?_
  rw [shapeCast_self]
  exact congrArg (fun z => a (ix2 p r) + z) (mm0_apply _ _ p r)

/-- The k-th term of the inner product of row p of X and column c of W, zero beyond the 4096 terms. -/
def term (X : S16x4096.Idx → EReal) (W : S4096x12288.Idx → EReal) (p : Fin 16) (c : Fin 12288) (k : ℕ) : EReal :=
  if h : k < 4096 then X (ix2 p ⟨k, h⟩) * W (ix2 ⟨k, h⟩ c) else 0

/-- The whole inner product is the sum of the first 4096 terms. -/
theorem sum_term (X : S16x4096.Idx → EReal) (W : S4096x12288.Idx → EReal) (p : Fin 16) (c : Fin 12288) :
    ∑ k ∈ Finset.range 4096, term X W p c k = Cert.Spec.qkv X W p c := by
  unfold Cert.Spec.qkv
  rw [Finset.sum_range]
  refine Finset.sum_congr rfl fun k _ => ?_
  unfold term
  rw [dif_pos k.isLt]

/-- The accumulator after the last inner tile of column tile j is the inner product. -/
theorem acc0_closed
    (X : S16x4096.Idx → EReal) (W : S4096x12288.Idx → EReal)
    (xb : Fin 32 → Vec Ideal S16x256 .f32) (wb : Fin 32 → Vec Ideal S256x6144 .f32)
    (hx : ∀ (t : Fin 32) (p : Fin 16) (q : Fin 256), xb t (ix2 p q) = X (ix2 p ⟨(t.val % 16) * 256 + q.val, by have := q.isLt; omega⟩))
    (hw : ∀ (t : Fin 32) (q : Fin 256) (r : Fin 6144), wb t (ix2 q r) = W (ix2 ⟨(t.val % 16) * 256 + q.val, by have := q.isLt; omega⟩ ⟨(t.val / 16) * 6144 + r.val, by have := t.isLt; have := r.isLt; omega⟩))
    (acc : (n : ℕ) → n < 32 → Vec Ideal S16x6144 .f32)
    (hacc : ∀ (n : ℕ) (h : n < 32), acc n h = Gen.k0_pay2 (xb ⟨n, h⟩) (wb ⟨n, h⟩) (if n % 16 = 0 then Gen.k0_pay1 (F := Ideal) else acc (n - 1) (by omega)))
    (j : Fin 2) (p : Fin 16) (r : Fin 6144) :
    acc (j.val * 16 + 15) (by have := j.isLt; omega) (ix2 p r) = Cert.Spec.qkv X W p ⟨j.val * 6144 + r.val, by have := j.isLt; have := r.isLt; omega⟩ := by
  have hj := j.isLt
  have hr := r.isLt
  -- the accumulator depends on the grid point's number only
  have acc_congr : ∀ (n m : ℕ) (e : n = m) (hn : n < 32) (hm : m < 32), acc n hn = acc m hm := by
    intro n m e hn hm; subst e; rfl
  -- the block product of grid point (j, κ) is the κ-th run of 256 terms
  have block : ∀ (κ : ℕ) (hκ : κ < 16) (hn : j.val * 16 + κ < 32),
      ∑ q : Fin 256, xb ⟨j.val * 16 + κ, hn⟩ (ix2 p q) * wb ⟨j.val * 16 + κ, hn⟩ (ix2 q r)
        = ∑ q ∈ Finset.range 256, term X W p ⟨j.val * 6144 + r.val, by omega⟩ (256 * κ + q) := by
    intro κ hκ hn
    rw [Finset.sum_range]
    refine Finset.sum_congr rfl fun q _ => ?_
    have hq := q.isLt
    rw [hx, hw]
    unfold term
    rw [dif_pos (by omega)]
    have e1 : (⟨((⟨j.val * 16 + κ, hn⟩ : Fin 32).val % 16) * 256 + q.val, by dsimp only; omega⟩ : Fin 4096) = ⟨256 * κ + q.val, by omega⟩ :=
      Fin.ext (by dsimp only; omega)
    have e2 : (⟨((⟨j.val * 16 + κ, hn⟩ : Fin 32).val / 16) * 6144 + r.val, by dsimp only; omega⟩ : Fin 12288) = ⟨j.val * 6144 + r.val, by omega⟩ :=
      Fin.ext (by dsimp only; omega)
    rw [e1, e2]
  -- after inner tile κ the accumulator holds the first 256 (κ + 1) terms
  have psum : ∀ (κ : ℕ) (hκ : κ < 16) (hn : j.val * 16 + κ < 32),
      acc (j.val * 16 + κ) hn (ix2 p r)
        = ∑ k ∈ Finset.range (256 * (κ + 1)), term X W p ⟨j.val * 6144 + r.val, by omega⟩ k := by
    intro κ
    induction κ with
    | zero =>
      intro hκ hn
      rw [hacc, pay2_apply, if_pos (by omega), pay1_apply, zero_add, block 0 hκ hn]
      refine Finset.sum_congr rfl fun q _ => ?_
      exact congrArg _ (by omega)
    | succ κ ih =>
      intro hκ hn
      rw [hacc, pay2_apply, if_neg (by omega), acc_congr (j.val * 16 + (κ + 1) - 1) (j.val * 16 + κ) (by omega) _ (by omega),
        ih (by omega) (by omega), block (κ + 1) hκ hn,
        show 256 * (κ + 1 + 1) = 256 * (κ + 1) + 256 by omega, Finset.sum_range_add]
  rw [psum 15 (by omega) (by omega)]
  exact sum_term X W p _

end Cert.KernelIdeal.Hand

end
-- ==== Proof.KI.Final0.lean ====
/-
  The first region's product array, read back whole.

  The output window's block at grid point t is the column tile t / 16 of the 16 × 12288 array; it is written
  back at the last of the sixteen inner tiles of each column tile, when the accumulator holds the whole inner
  products of that tile's columns. The two column tiles cover the array, so the array ends as X · W.
-/
import proofs.«162865_j31731218382925_2_alg».proof.Proof.KI.Region0
import proofs.«162865_j31731218382925_2_alg».proof.Proof.Acc0
import proofs.«162865_j31731218382925_2_alg».proof.Proof.Spec
import proofs.«162865_j31731218382925_2_alg».proof.Proof.Gen.KernelIdeal.Points
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The windows' block indices at grid point t = (t / 16, t % 16): the block of X is (0, t % 16), the block of
    W is (t % 16, t / 16), the output's block is (0, t / 16). -/
theorem index_facts0 : ∀ t : Fin cfg0.N,
    win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16 :=
  (by decide +kernel : ∀ t : Fin grid0.N, _)

/-- The block of X at point t, read at an entry. -/
theorem xblk_apply (c : Dev nD) (t : Fin cfg0.N) (p : Fin 16) (q : Fin 256) :
    (iblk0 V c 0 t : Vec Ideal S16x256 .f32) (ix2 p q)
      = (V c main_arg0 : S16x4096.Idx → EReal) (ix2 p ⟨(t.val % 16) * 256 + q.val, by have := q.isLt; omega⟩) := by
  obtain ⟨e0, e1, -⟩ := index_facts0 t
  unfold iblk0
  rw [View.read_apply]
  show V c main_arg0 _ = V c main_arg0 _
  refine congrArg _ (funext fun a => Fin.ext ?_)
  have hq := q.isLt
  match a with
  | ⟨0, _⟩ => show win0_0.index t (0 : Fin 2) * 16 + 1 * p.val = p.val; omega
  | ⟨1, _⟩ => show win0_0.index t (1 : Fin 2) * 256 + 1 * q.val = (t.val % 16) * 256 + q.val; omega

/-- The block of W at point t, read at an entry. -/
theorem wblk_apply (c : Dev nD) (t : Fin cfg0.N) (q : Fin 256) (r : Fin 6144) :
    (iblk0 V c 1 t : Vec Ideal S256x6144 .f32) (ix2 q r)
      = (V c main_arg1 : S4096x12288.Idx → EReal) (ix2 ⟨(t.val % 16) * 256 + q.val, by have := q.isLt; omega⟩
          ⟨(t.val / 16) * 6144 + r.val, by have := t.isLt; have hN : cfg0.N = 32 := Gen.N_0; have := r.isLt; omega⟩) := by
  obtain ⟨-, -, e2, e3, -⟩ := index_facts0 t
  unfold iblk0
  rw [View.read_apply]
  show V c main_arg1 _ = V c main_arg1 _
  refine congrArg _ (funext fun a => Fin.ext ?_)
  have hq := q.isLt
  have hr := r.isLt
  match a with
  | ⟨0, _⟩ => show win0_1.index t (0 : Fin 2) * 256 + 1 * q.val = (t.val % 16) * 256 + q.val; omega
  | ⟨1, _⟩ => show win0_1.index t (1 : Fin 2) * 6144 + 1 * r.val = (t.val / 16) * 6144 + r.val; omega

/-- The product array as a function of its index. -/
def prod0 (X : S16x4096.Idx → EReal) (W : S4096x12288.Idx → EReal) : S16x12288.Idx → EReal := fun i =>
  Cert.Spec.qkv X W ⟨(i 0).val, idx2_lt0 i⟩ ⟨(i 1).val, idx2_lt1 i⟩

/-- The accumulator depends on the point's number only. -/
theorem acc0_congr (c : Dev nD) (n n' : ℕ) (e : n = n') (hn : n < cfg0.N) (hn' : n' < cfg0.N) :
    acc0 V c n hn = acc0 V c n' hn' := by
  subst e; rfl

/-- After the last inner tile of a column tile the accumulator holds that tile's columns of X · W. -/
theorem acc0_last (c : Dev nD) (t : Fin cfg0.N) (ht : t.val % 16 = 15) (p : Fin 16) (r : Fin 6144) :
    acc0 V c t.val t.isLt (ix2 p r)
      = Cert.Spec.qkv (V c main_arg0) (V c main_arg1) p
          ⟨(t.val / 16) * 6144 + r.val, by have := t.isLt; have hN : cfg0.N = 32 := Gen.N_0; have := r.isLt; omega⟩ := by
  have hN : cfg0.N = 32 := Gen.N_0
  have htl := t.isLt
  have hr := r.isLt
  have key := acc0_closed (V c main_arg0) (V c main_arg1)
    (fun s => iblk0 V c 0 ⟨s.val, by have := s.isLt; omega⟩)
    (fun s => iblk0 V c 1 ⟨s.val, by have := s.isLt; omega⟩)
    (fun s p q => xblk_apply V c _ p q)
    (fun s q r => wblk_apply V c _ q r)
    (fun n h => acc0 V c n (by omega))
    (fun n h => acc0_eq V c ⟨n, by omega⟩)
    ⟨t.val / 16, by omega⟩ p r
  rw [acc0_congr V c t.val (t.val / 16 * 16 + 15) (by omega) t.isLt (by omega)]
  exact key

/-- The inner product depends on the row's and the column's numbers only. -/
theorem qkv_congr (X : S16x4096.Idx → EReal) (W : S4096x12288.Idx → EReal) (p p' : Fin 16) (n n' : Fin 12288)
    (hp : p.val = p'.val) (hn : n.val = n'.val) : Cert.Spec.qkv X W p n = Cert.Spec.qkv X W p' n' := by
  obtain rfl : p = p' := Fin.ext hp
  obtain rfl : n = n' := Fin.ext hn
  rfl

/-- What a point that closes a column tile writes back is its block of the product array. -/
theorem flushed0_eq (c : Dev nD) (t : Fin cfg0.N) (hf : (cfg0.win 2).flush t = true) :
    (dat0 (F := Ideal) V c).flushed 2 t
      = ((cfg0.win 2).blk t).view.read (Elt Ideal) (prod0 (V c main_arg0) (V c main_arg1)) := by
  have ht : t.val % 16 = 15 := (Gen.flush0_2 t).mp hf
  have hN : cfg0.N = 32 := Gen.N_0
  have htl := t.isLt
  obtain ⟨-, -, -, -, e4, e5⟩ := index_facts0 t
  show (cfg0.win 2).cut (cfg0.grid.coords t) ((dat0 (F := Ideal) V c).after 2 t) = _
  rw [after0_2]
  funext y
  rw [View.read_apply]
  have hy0 : (y 0).val < 16 := (y 0).isLt
  have hy1 : (y 1).val < 6144 := (y 1).isLt
  have ey : (cfg0.win 2).xinj (cfg0.grid.coords t) y = ix2 (⟨(y 0).val, hy0⟩ : Fin 16) (⟨(y 1).val, hy1⟩ : Fin 6144) :=
    funext fun a => by
      match a with
      | ⟨0, _⟩ => rfl
      | ⟨1, _⟩ => rfl
  show acc0 V c t.val t.isLt ((cfg0.win 2).xinj (cfg0.grid.coords t) y) = prod0 (V c main_arg0) (V c main_arg1) (((cfg0.win 2).blk t).view.emb y)
  rw [ey]
  refine (acc0_last V c t ht _ _).trans ?_
  unfold prod0
  refine qkv_congr _ _ _ _ _ _ ?_ ?_
  · show (y 0).val = win0_2.index t (0 : Fin 2) * 16 + 1 * (y 0).val
    omega
  · show (t.val / 16) * 6144 + (y 1).val = win0_2.index t (1 : Fin 2) * 6144 + 1 * (y 1).val
    omega

/-- An index of the array is in point t's block iff each coordinate is in the block's range on its axis. -/
theorem mem_blk0 (t : Fin cfg0.N) (i : S16x12288.Idx) :
    i ∈ ((cfg0.win 2).blk t).view.set ↔ ∀ a : Fin 2, win0_2.index t a * S16x6144.size a ≤ (i a).val ∧ (i a).val < win0_2.index t a * S16x6144.size a + S16x6144.size a := by
  show i ∈ ((View.whole main_v0).slice (win0_2.rect t)).set ↔ _
  rw [View.set_slice_whole, Rect.mem_set_unit]
  exact Iff.rfl

/-- Every index of the array is in the block of the point that closes its column tile. -/
theorem cover0 (i : S16x12288.Idx) :
    ∃ t : Fin cfg0.N, (cfg0.win 2).flush t = true ∧ i ∈ ((cfg0.win 2).blk t).view.set := by
  have hN : cfg0.N = 32 := Gen.N_0
  have hi0 : (i 0).val < 16 := (i 0).isLt
  have hi1 : (i 1).val < 12288 := (i 1).isLt
  obtain ⟨t, ht⟩ : ∃ t : Fin cfg0.N, t.val = (i 1).val / 6144 * 16 + 15 := ⟨⟨_, by omega⟩, rfl⟩
  obtain ⟨-, -, -, -, e4, e5⟩ := index_facts0 t
  refine ⟨t, (Gen.flush0_2 t).mpr (by omega), ?_⟩
  rw [mem_blk0]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 6144 ≤ (i 1).val ∧ (i 1).val < win0_2.index t (1 : Fin 2) * 6144 + 6144
    omega

/-- The array after the region: X · W. -/
theorem final0_fun (c : Dev nD) :
    (dat0 (F := Ideal) V c).arrAt 2 cfg0.N = prod0 (V c main_arg0) (V c main_arg1) :=
  (dat0 (F := Ideal) V c).arrAt_eq_of_cover 2 (prod0 (V c main_arg0) (V c main_arg1)) (fun t hf => flushed0_eq V c t hf) cover0

/-- The array after the region, entry by entry. -/
theorem final0 (c : Dev nD) (p : Fin 16) (n : Fin 12288) :
    (dat0 (F := Ideal) V c).arrAt 2 cfg0.N (ix2 p n) = Cert.Spec.qkv (V c main_arg0) (V c main_arg1) p n := by
  rw [final0_fun]
  rfl

end Cert.KernelIdeal.Hand

end
-- ==== Proof.Pay3.lean ====
/-
  The attention block's output read at one coordinate.

  For one block of two heads, with queries q [head, row, lane] and cached keys and values kc, vc
  [head, position, lane], the block's result at (a, m, d) is

      ∑ s, ( exp (∑ e, q a m e · kc a s e) / (0 + ∑ s', exp (∑ e, q a m e · kc a s' e)) ) · vc a s d :

  the first contraction sums over the 128 lanes, the row sum runs over the 4096 positions and is laid
  back over them (a unit axis added, then repeated), the quotient is taken position by position, and the
  second contraction sums over the 4096 positions. On the extended reals the narrowing of a format is
  the identity and a contraction into the zero array is the bare sum, so nothing else is left.
-/
import proofs.«162865_j31731218382925_2_alg».proof.Proof.Gen.KernelIdeal.Skeleton
import proofs.«162865_j31731218382925_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The scores' contraction: batch axis 0, lane axis 2 of the queries against lane axis 2 of the keys. -/
abbrev Dqk : DotDims S2x16x128 S2x4096x128 S2x16x4096 := dot_S2x16x128_S2x4096x128_S2x16x4096_2_2_1_1_0_0
/-- The output's contraction: batch axis 0, position axis 2 of the weights against position axis 1 of the values. -/
abbrev Dwv : DotDims S2x16x4096 S2x4096x128 S2x16x128 := dot_S2x16x4096_S2x4096x128_S2x16x128_2_1_1_2_0_0

/-! ## The scores: the first contraction at (a, m, s) is the sum over the 128 lanes -/

theorem qk_lhs0 (i : S2x16x4096.Idx) (k : Dqk.contr.Idx) : (Dqk.lhsIdx i k 0).val = (i 0).val := by
  unfold DotDims.lhsIdx
  rw [dif_pos (show (0 : Fin S2x16x128.rank) ∈ Dqk.lhsBatch by decide)]
  rfl
theorem qk_lhs1 (i : S2x16x4096.Idx) (k : Dqk.contr.Idx) : (Dqk.lhsIdx i k 1).val = (i 1).val := by
  unfold DotDims.lhsIdx
  rw [dif_neg (show ¬(1 : Fin S2x16x128.rank) ∈ Dqk.lhsBatch by decide),
    dif_pos (show (1 : Fin S2x16x128.rank) ∈ Dqk.lhsNonContracting by decide)]
  rfl
theorem qk_lhs2 (i : S2x16x4096.Idx) (k : Dqk.contr.Idx) : (Dqk.lhsIdx i k 2).val = (k ⟨0, by decide⟩).val :=
  Dqk.lhsIdx_val_of_single rfl i k
theorem qk_rhs0 (i : S2x16x4096.Idx) (k : Dqk.contr.Idx) : (Dqk.rhsIdx i k 0).val = (i 0).val := by
  unfold DotDims.rhsIdx
  rw [dif_pos (show (0 : Fin S2x4096x128.rank) ∈ Dqk.rhsBatch by decide)]
  rfl
theorem qk_rhs1 (i : S2x16x4096.Idx) (k : Dqk.contr.Idx) : (Dqk.rhsIdx i k 1).val = (i 2).val := by
  unfold DotDims.rhsIdx
  rw [dif_neg (show ¬(1 : Fin S2x4096x128.rank) ∈ Dqk.rhsBatch by decide),
    dif_pos (show (1 : Fin S2x4096x128.rank) ∈ Dqk.rhsNonContracting by decide)]
  rfl
theorem qk_rhs2 (i : S2x16x4096.Idx) (k : Dqk.contr.Idx) : (Dqk.rhsIdx i k 2).val = (k ⟨0, by decide⟩).val :=
  Dqk.rhsIdx_val_of_single rfl i k

/-- Entry (a, m, s) of the scores: the inner product over the lanes of query row m and key s of head a. -/
theorem scores_apply {φ₁ φ₂ : FTy} (x : FVec Ideal S2x16x128 φ₁) (y : FVec Ideal S2x4096x128 φ₂)
    (a : Fin 2) (m : Fin 16) (s : Fin 4096) :
    matmul Dqk none x y (constant (F := Ideal) S2x16x4096 .f32 0x00000000#32) (ix3 a m s)
      = ∑ e : Fin 128, x (ix3 a m e) * y (ix3 a s e) := by
  refine (Ideal.matmul_constant_zero_apply Dqk none x y (ix3 a m s)).trans ?_
  rw [← Equiv.sum_comp (contrEquiv1 Dqk 128 rfl rfl).symm]
  refine Finset.sum_congr rfl fun e _ => ?_
  have he := contrEquiv1_symm_val Dqk 128 rfl rfl e
  have el : Dqk.lhsIdx (ix3 a m s) ((contrEquiv1 Dqk 128 rfl rfl).symm e) = ix3 a m e :=
    funext fun c => Fin.ext (by
      match c with
      | ⟨0, _⟩ => exact qk_lhs0 _ _
      | ⟨1, _⟩ => exact qk_lhs1 _ _
      | ⟨2, _⟩ => exact (qk_lhs2 _ _).trans he)
  have er : Dqk.rhsIdx (ix3 a m s) ((contrEquiv1 Dqk 128 rfl rfl).symm e) = ix3 a s e :=
    funext fun c => Fin.ext (by
      match c with
      | ⟨0, _⟩ => exact qk_rhs0 _ _
      | ⟨1, _⟩ => exact qk_rhs1 _ _
      | ⟨2, _⟩ => exact (qk_rhs2 _ _).trans he)
  rw [el, er]

/-! ## The row sums, and their spreading back over the positions -/

/-- Entry (a, m) of the sum over the positions of a [2, 16, 4096] array. -/
theorem rowsum_apply (w : FVec Ideal S2x16x4096 .f32) (h : S2x16x4096.Reduces [2] S2x16) (hφ : FKind.Formats .f32)
    (hacc : (0x00000000#32 : BitVec FTy.f32.bits) = FKind.add.neutral .f32 hφ) (a : Fin 2) (m : Fin 16) :
    multiReduction .add [2] S2x16 w 0x00000000#32 h hφ hacc (ix2 a m) = ∑ s : Fin 4096, w (ix3 a m s) := by
  refine (Ideal.multiReduction_add_single w _ h hφ hacc (ix2 a m)).trans ?_
  refine Finset.sum_congr rfl fun s _ => congrArg w (funext fun c => Fin.ext ?_)
  match c with
  | ⟨0, _⟩ => rfl
  | ⟨1, _⟩ => rfl
  | ⟨2, _⟩ => rfl

/-- A [2, 16] array given a trailing unit axis and repeated 4096 times along it reads, at (a, m, s), its entry
    (a, m): the row-major position of (a, m, 0) in [2, 16, 1] is that of (a, m) in [2, 16]. -/
theorem keepdims_apply {α : Type} (r : S2x16.Idx → α) (h1 : S2x16.ShapeCasts S2x16x1)
    (h2 : S2x16x1.Broadcasts S2x16x4096) (a : Fin 2) (m : Fin 16) (s : Fin 4096) :
    broadcastTo S2x16x4096 (shapeCast S2x16x1 r h1) h2 (ix3 a m s) = r (ix2 a m) := by
  refine (broadcastTo_apply _ h2 (ix3 a m s) (ix3 a m (0 : Fin 1)) fun c => ?_).trans ?_
  · match c with
    | ⟨0, _⟩ => rfl
    | ⟨1, _⟩ => rfl
    | ⟨2, _⟩ => rfl
  · refine shapeCast_apply r h1 (ix3 a m (0 : Fin 1)) (ix2 a m) ?_
    rw [Shape.rowMajor_val_two, Shape.rowMajor_val_three]
    show a.val * 16 + m.val = (a.val * 16 + m.val) * 1 + 0
    omega

/-! ## The output: the second contraction at (a, m, d) is the sum over the 4096 positions -/

theorem wv_lhs0 (i : S2x16x128.Idx) (k : Dwv.contr.Idx) : (Dwv.lhsIdx i k 0).val = (i 0).val := by
  unfold DotDims.lhsIdx
  rw [dif_pos (show (0 : Fin S2x16x4096.rank) ∈ Dwv.lhsBatch by decide)]
  rfl
theorem wv_lhs1 (i : S2x16x128.Idx) (k : Dwv.contr.Idx) : (Dwv.lhsIdx i k 1).val = (i 1).val := by
  unfold DotDims.lhsIdx
  rw [dif_neg (show ¬(1 : Fin S2x16x4096.rank) ∈ Dwv.lhsBatch by decide),
    dif_pos (show (1 : Fin S2x16x4096.rank) ∈ Dwv.lhsNonContracting by decide)]
  rfl
theorem wv_lhs2 (i : S2x16x128.Idx) (k : Dwv.contr.Idx) : (Dwv.lhsIdx i k 2).val = (k ⟨0, by decide⟩).val :=
  Dwv.lhsIdx_val_of_single rfl i k
theorem wv_rhs0 (i : S2x16x128.Idx) (k : Dwv.contr.Idx) : (Dwv.rhsIdx i k 0).val = (i 0).val := by
  unfold DotDims.rhsIdx
  rw [dif_pos (show (0 : Fin S2x4096x128.rank) ∈ Dwv.rhsBatch by decide)]
  rfl
theorem wv_rhs1 (i : S2x16x128.Idx) (k : Dwv.contr.Idx) : (Dwv.rhsIdx i k 1).val = (k ⟨0, by decide⟩).val :=
  Dwv.rhsIdx_val_of_single rfl i k
theorem wv_rhs2 (i : S2x16x128.Idx) (k : Dwv.contr.Idx) : (Dwv.rhsIdx i k 2).val = (i 2).val := by
  unfold DotDims.rhsIdx
  rw [dif_neg (show ¬(2 : Fin S2x4096x128.rank) ∈ Dwv.rhsBatch by decide),
    dif_pos (show (2 : Fin S2x4096x128.rank) ∈ Dwv.rhsNonContracting by decide)]
  rfl

/-- Entry (a, m, d) of the output: the sum over the positions of weight (a, m, s) times value (a, s, d). -/
theorem out_apply {φ₁ φ₂ : FTy} (w : FVec Ideal S2x16x4096 φ₁) (v : FVec Ideal S2x4096x128 φ₂)
    (a : Fin 2) (m : Fin 16) (d : Fin 128) :
    matmul Dwv none w v (constant (F := Ideal) S2x16x128 .f32 0x00000000#32) (ix3 a m d)
      = ∑ s : Fin 4096, w (ix3 a m s) * v (ix3 a s d) := by
  refine (Ideal.matmul_constant_zero_apply Dwv none w v (ix3 a m d)).trans ?_
  rw [← Equiv.sum_comp (contrEquiv1 Dwv 4096 rfl rfl).symm]
  refine Finset.sum_congr rfl fun s _ => ?_
  have hs := contrEquiv1_symm_val Dwv 4096 rfl rfl s
  have el : Dwv.lhsIdx (ix3 a m d) ((contrEquiv1 Dwv 4096 rfl rfl).symm s) = ix3 a m s :=
    funext fun c => Fin.ext (by
      match c with
      | ⟨0, _⟩ => exact wv_lhs0 _ _
      | ⟨1, _⟩ => exact wv_lhs1 _ _
      | ⟨2, _⟩ => exact (wv_lhs2 _ _).trans hs)
  have er : Dwv.rhsIdx (ix3 a m d) ((contrEquiv1 Dwv 4096 rfl rfl).symm s) = ix3 a s d :=
    funext fun c => Fin.ext (by
      match c with
      | ⟨0, _⟩ => exact wv_rhs0 _ _
      | ⟨1, _⟩ => exact (wv_rhs1 _ _).trans hs
      | ⟨2, _⟩ => exact wv_rhs2 _ _)
  rw [el, er]

/-! ## The weights and the block's output -/

/-- The exponential of an array reads the exponential of its entry. -/
theorem exp_apply {s : Shape} {φ : FTy} (x : FVec Ideal s φ) (i : s.Idx) : exp x i = Ideal.exp (x i) := rfl

/-- The weights of a score array σ at (a, m, s): the exponential of the score over the sum, begun at zero, of the
    row's exponentials. -/
theorem weights_apply (σ : FVec Ideal S2x16x4096 .f32) (h : S2x16x4096.Reduces [2] S2x16) (hφ : FKind.Formats .f32)
    (hacc : (0x00000000#32 : BitVec FTy.f32.bits) = FKind.add.neutral .f32 hφ) (h1 : S2x16.ShapeCasts S2x16x1)
    (h2 : S2x16x1.Broadcasts S2x16x4096) (a : Fin 2) (m : Fin 16) (s : Fin 4096) :
    divf (exp σ) (broadcastTo S2x16x4096
        (shapeCast S2x16x1 (multiReduction .add [2] S2x16 (exp σ) 0x00000000#32 h hφ hacc) h1) h2) (ix3 a m s)
      = Ideal.div (Ideal.exp (σ (ix3 a m s))) (0 + ∑ s' : Fin 4096, Ideal.exp (σ (ix3 a m s'))) := by
  refine (divf_apply _ _ _).trans ?_
  refine congrArg₂ Ideal.div (exp_apply σ _) ?_
  refine (keepdims_apply _ h1 h2 a m s).trans ?_
  refine (rowsum_apply _ h hφ hacc a m).trans ?_
  exact (zero_add _).symm

/-- THE BLOCK'S OUTPUT at (a, m, d) is the attention of head a, query row m, lane d over the block's queries, keys
    and values. -/
theorem pay3_apply (q : Vec Ideal S2x16x128 .f32) (kc vc : Vec Ideal S2x4096x128 .f32) (a : Fin 2) (m : Fin 16) (d : Fin 128) :
    Gen.k1_pay3 q kc vc (ix3 a m d)
      = Cert.Spec.attn (fun a m e => q (ix3 a m e)) (fun a s e => kc (ix3 a s e)) (fun a s e => vc (ix3 a s e)) a m d := by
  unfold Gen.k1_pay3
  refine (out_apply _ _ a m d).trans ?_
  unfold Cert.Spec.attn Cert.Spec.score
  refine Finset.sum_congr rfl fun s _ => ?_
  -- the scores of row m against every position
  have hsc : ∀ s' : Fin 4096,
      matmul dot_S2x16x128_S2x4096x128_S2x16x4096_2_2_1_1_0_0 none
          (truncf .bf16 (shapeCast S2x16x128 q shapeCasts_S2x16x128_S2x16x128) bitsLt_bf16_f32)
          (truncf .bf16 kc bitsLt_bf16_f32) (constant (F := Ideal) S2x16x4096 .f32 0x00000000#32) (ix3 a m s')
        = ∑ e : Fin 128, q (ix3 a m e) * kc (ix3 a s' e) := fun s' => by
    refine (scores_apply _ _ a m s').trans ?_
    rw [shapeCast_self]
    rfl
  refine congrArg₂ (· * ·) ?_ rfl
  refine (truncf_apply (ψ := FTy.bf16) _ bitsLt_bf16_f32 (ix3 a m s)).trans ?_
  refine (weights_apply _ _ _ _ _ _ a m s).trans ?_
  simp only [hsc]

end Cert.KernelIdeal.Hand

end
-- ==== Proof.KI.Final1.lean ====
/-
  The attention array after the second launch, read at one coordinate.

  The launch runs over sixteen pairs of heads. Pair t stages heads 2t and 2t + 1 of the queries, of the new key and
  value rows and of the two caches, and writes back heads 2t and 2t + 1 of the result; the sixteen blocks tile the
  result's 32 heads. Within a pair the body overwrites positions 2048 … 2063 of the staged caches with the new rows
  and computes the attention of each of its two heads over the overwritten caches. Attention of one head reads that
  head's queries, keys and values only, so head h = 2t + a of the result is the attention of head h over the whole
  arrays, the caches overwritten at positions 2048 … 2063.
-/
import proofs.«162865_j31731218382925_2_alg».proof.Proof.KI.Region1
import proofs.«162865_j31731218382925_2_alg».proof.Proof.Pay3
import proofs.«162865_j31731218382925_2_alg».proof.Proof.Spec
import proofs.«162865_j31731218382925_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The whole arrays by coordinates, and the result as one function of them -/

/-- The queries [head, row, lane]. -/
def qAll (c : Dev nD) : Fin 32 → Fin 16 → Fin 128 → EReal := fun h m e => V c main_v5 (ix3 h m e)
/-- The cached keys: the key cache with positions 2048 … 2063 replaced by the new key rows. -/
def kAll (c : Dev nD) : Fin 32 → Fin 4096 → Fin 128 → EReal :=
  Cert.Spec.upd (fun h s e => V c main_arg2 (ix3 h s e)) (fun h m e => V c main_v7 (ix3 h m e))
/-- The cached values: the value cache with positions 2048 … 2063 replaced by the new value rows. -/
def vAll (c : Dev nD) : Fin 32 → Fin 4096 → Fin 128 → EReal :=
  Cert.Spec.upd (fun h s e => V c main_arg3 (ix3 h s e)) (fun h m e => V c main_v9 (ix3 h m e))

/-- The attention of every head, as an array [head, row, lane]. -/
def attnAll (c : Dev nD) : S32x16x128.Idx → EReal := fun i =>
  Cert.Spec.attn (qAll V c) (kAll V c) (vAll V c) ⟨(i 0).val, (i 0).isLt⟩ ⟨(i 1).val, (i 1).isLt⟩ ⟨(i 2).val, (i 2).isLt⟩

theorem attnAll_apply (c : Dev nD) (h : Fin 32) (m : Fin 16) (d : Fin 128) :
    attnAll V c (ix3 h m d) = Cert.Spec.attn (qAll V c) (kAll V c) (vAll V c) h m d := rfl

/-! ## Where each window's block sits: pair t holds heads 2t and 2t + 1, every row or position, every lane -/

theorem blockIndex : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0) :=
  (by decide +kernel : ∀ t : Fin grid1.N, _)

theorem pairs_lt (t : Fin cfg1.N) : t.val < 16 := Nat.lt_of_lt_of_eq t.isLt N_1

/-! ## Each staged block, read where it sits in its array

An element of a block sits in the array, on each axis, at the block's index times the block's extent plus its
own coordinate: element (a, m, e) of pair t's block is the array's element (2t + a, m, e). -/

theorem iblk1_0_apply (c : Dev nD) (t : Fin cfg1.N) (a : Fin 2) (m : Fin 16) (e : Fin 128) :
    iblk1 V c 0 t (ix3 a m e) = V c main_v5 (ix3 (⟨2 * t.val + a.val, by have := pairs_lt t; omega⟩ : Fin 32) m e) := by
  obtain ⟨i0, i1, i2⟩ := (blockIndex t).1
  unfold iblk1
  rw [View.read_apply]
  show V c main_v5 _ = V c main_v5 _
  congr 1
  funext k
  apply Fin.ext
  match k with
  | ⟨0, _⟩ => show win1_0.index t (0 : Fin 3) * 2 + 1 * a.val = 2 * t.val + a.val; rw [i0]; omega
  | ⟨1, _⟩ => show win1_0.index t (1 : Fin 3) * 16 + 1 * m.val = m.val; rw [i1]; omega
  | ⟨2, _⟩ => show win1_0.index t (2 : Fin 3) * 128 + 1 * e.val = e.val; rw [i2]; omega

theorem iblk1_1_apply (c : Dev nD) (t : Fin cfg1.N) (a : Fin 2) (m : Fin 16) (e : Fin 128) :
    iblk1 V c 1 t (ix3 a m e) = V c main_v7 (ix3 (⟨2 * t.val + a.val, by have := pairs_lt t; omega⟩ : Fin 32) m e) := by
  obtain ⟨i0, i1, i2⟩ := (blockIndex t).2.1
  unfold iblk1
  rw [View.read_apply]
  show V c main_v7 _ = V c main_v7 _
  congr 1
  funext k
  apply Fin.ext
  match k with
  | ⟨0, _⟩ => show win1_1.index t (0 : Fin 3) * 2 + 1 * a.val = 2 * t.val + a.val; rw [i0]; omega
  | ⟨1, _⟩ => show win1_1.index t (1 : Fin 3) * 16 + 1 * m.val = m.val; rw [i1]; omega
  | ⟨2, _⟩ => show win1_1.index t (2 : Fin 3) * 128 + 1 * e.val = e.val; rw [i2]; omega

theorem iblk1_2_apply (c : Dev nD) (t : Fin cfg1.N) (a : Fin 2) (m : Fin 16) (e : Fin 128) :
    iblk1 V c 2 t (ix3 a m e) = V c main_v9 (ix3 (⟨2 * t.val + a.val, by have := pairs_lt t; omega⟩ : Fin 32) m e) := by
  obtain ⟨i0, i1, i2⟩ := (blockIndex t).2.2.1
  unfold iblk1
  rw [View.read_apply]
  show V c main_v9 _ = V c main_v9 _
  congr 1
  funext k
  apply Fin.ext
  match k with
  | ⟨0, _⟩ => show win1_2.index t (0 : Fin 3) * 2 + 1 * a.val = 2 * t.val + a.val; rw [i0]; omega
  | ⟨1, _⟩ => show win1_2.index t (1 : Fin 3) * 16 + 1 * m.val = m.val; rw [i1]; omega
  | ⟨2, _⟩ => show win1_2.index t (2 : Fin 3) * 128 + 1 * e.val = e.val; rw [i2]; omega

theorem iblk1_3_apply (c : Dev nD) (t : Fin cfg1.N) (a : Fin 2) (s : Fin 4096) (e : Fin 128) :
    iblk1 V c 3 t (ix3 a s e) = V c main_arg2 (ix3 (⟨2 * t.val + a.val, by have := pairs_lt t; omega⟩ : Fin 32) s e) := by
  obtain ⟨i0, i1, i2⟩ := (blockIndex t).2.2.2.1
  unfold iblk1
  rw [View.read_apply]
  show V c main_arg2 _ = V c main_arg2 _
  congr 1
  funext k
  apply Fin.ext
  match k with
  | ⟨0, _⟩ => show win1_3.index t (0 : Fin 3) * 2 + 1 * a.val = 2 * t.val + a.val; rw [i0]; omega
  | ⟨1, _⟩ => show win1_3.index t (1 : Fin 3) * 4096 + 1 * s.val = s.val; rw [i1]; omega
  | ⟨2, _⟩ => show win1_3.index t (2 : Fin 3) * 128 + 1 * e.val = e.val; rw [i2]; omega

theorem iblk1_4_apply (c : Dev nD) (t : Fin cfg1.N) (a : Fin 2) (s : Fin 4096) (e : Fin 128) :
    iblk1 V c 4 t (ix3 a s e) = V c main_arg3 (ix3 (⟨2 * t.val + a.val, by have := pairs_lt t; omega⟩ : Fin 32) s e) := by
  obtain ⟨i0, i1, i2⟩ := (blockIndex t).2.2.2.2.1
  unfold iblk1
  rw [View.read_apply]
  show V c main_arg3 _ = V c main_arg3 _
  congr 1
  funext k
  apply Fin.ext
  match k with
  | ⟨0, _⟩ => show win1_4.index t (0 : Fin 3) * 2 + 1 * a.val = 2 * t.val + a.val; rw [i0]; omega
  | ⟨1, _⟩ => show win1_4.index t (1 : Fin 3) * 4096 + 1 * s.val = s.val; rw [i1]; omega
  | ⟨2, _⟩ => show win1_4.index t (2 : Fin 3) * 128 + 1 * e.val = e.val; rw [i2]; omega

/-! ## One pair's attention is the whole arrays' attention of its two heads -/

/-- Head a of pair t is head 2t + a: its queries, overwritten keys and overwritten values are that head's of the
    whole arrays, so its attention is. -/
theorem pair_attn (c : Dev nD) (t : Fin cfg1.N) (a : Fin 2) (m : Fin 16) (d : Fin 128) :
    Cert.Spec.attn (fun a m e => iblk1 V c 0 t (ix3 a m e)) (fun a s e => kc1 V c t (ix3 a s e))
        (fun a s e => vc1 V c t (ix3 a s e)) a m d
      = Cert.Spec.attn (qAll V c) (kAll V c) (vAll V c) (⟨2 * t.val + a.val, by have := pairs_lt t; omega⟩ : Fin 32) m d := by
  refine Cert.Spec.attn_congr _ _ _ _ _ _ a _ ?_ ?_ ?_ m d
  · funext m e
    exact iblk1_0_apply V c t a m e
  · funext s e
    show kc1 V c t (ix3 a s e) = Cert.Spec.upd _ _ _ s e
    rw [kc1_apply]
    unfold Cert.Spec.upd
    by_cases hs : 2048 ≤ s.val ∧ s.val < 2064
    · rw [dif_pos hs, dif_pos hs]; exact iblk1_1_apply V c t a _ e
    · rw [dif_neg hs, dif_neg hs]; exact iblk1_3_apply V c t a s e
  · funext s e
    show vc1 V c t (ix3 a s e) = Cert.Spec.upd _ _ _ s e
    rw [vc1_apply]
    unfold Cert.Spec.upd
    by_cases hs : 2048 ≤ s.val ∧ s.val < 2064
    · rw [dif_pos hs, dif_pos hs]; exact iblk1_2_apply V c t a _ e
    · rw [dif_neg hs, dif_neg hs]; exact iblk1_4_apply V c t a s e

/-! ## What each pair writes back, and the array after the last pair -/

/-- WHAT PAIR t WRITES BACK is its block of the attention of every head. -/
theorem flushedAttn (c : Dev nD) (t : Fin cfg1.N) :
    (dat1 (F := Ideal) V c).flushed 5 t = ((cfg1.win 5).blk t).view.read (Elt Ideal) (attnAll V c) := by
  show (cfg1.win 5).cut (cfg1.grid.coords t) ((dat1 (F := Ideal) V c).after 5 t) = _
  rw [after1_5, out1_eq]
  obtain ⟨i0, i1, i2⟩ := (blockIndex t).2.2.2.2.2
  funext j
  have hx : (cfg1.win 5).xinj (cfg1.grid.coords t) j
      = ix3 (⟨(j 0).val, (j 0).isLt⟩ : Fin 2) (⟨(j 1).val, (j 1).isLt⟩ : Fin 16) (⟨(j 2).val, (j 2).isLt⟩ : Fin 128) :=
    funext fun k => Fin.ext (by match k with | ⟨0, _⟩ => rfl | ⟨1, _⟩ => rfl | ⟨2, _⟩ => rfl)
  have he : ((cfg1.win 5).blk t).view.emb j
      = ix3 (⟨2 * t.val + (j 0).val, by have := pairs_lt t; have hj : (j 0).val < 2 := (j 0).isLt; omega⟩ : Fin 32)
          (⟨(j 1).val, (j 1).isLt⟩ : Fin 16) (⟨(j 2).val, (j 2).isLt⟩ : Fin 128) :=
    funext fun k => Fin.ext (by
      match k with
      | ⟨0, _⟩ => show win1_5.index t (0 : Fin 3) * 2 + 1 * (j 0).val = 2 * t.val + (j 0).val; rw [i0]; omega
      | ⟨1, _⟩ => show win1_5.index t (1 : Fin 3) * 16 + 1 * (j 1).val = (j 1).val; rw [i1]; omega
      | ⟨2, _⟩ => show win1_5.index t (2 : Fin 3) * 128 + 1 * (j 2).val = (j 2).val; rw [i2]; omega)
  show Gen.k1_pay3 (iblk1 V c 0 t) (kc1 V c t) (vc1 V c t) ((cfg1.win 5).xinj (cfg1.grid.coords t) j)
    = attnAll V c (((cfg1.win 5).blk t).view.emb j)
  rw [hx, he, pay3_apply, attnAll_apply]
  exact pair_attn V c t _ _ _

/-- An index of the array is in pair t's block iff each coordinate is in the block's range on its axis. -/
theorem mem_pairBlock (t : Fin cfg1.N) (i : S32x16x128.Idx) :
    i ∈ ((cfg1.win 5).blk t).view.set
      ↔ ∀ a : Fin 3, win1_5.index t a * S2x16x128.size a ≤ (i a).val ∧ (i a).val < win1_5.index t a * S2x16x128.size a + S2x16x128.size a := by
  show i ∈ ((View.whole main_v10).slice (win1_5.rect t)).set ↔ _
  rw [View.set_slice_whole, Rect.mem_set_unit]
  exact Iff.rfl

/-- Every index of the array is in some pair's block: head h is in pair h / 2. -/
theorem pairs_cover (i : S32x16x128.Idx) :
    ∃ t : Fin cfg1.N, (cfg1.win 5).flush t = true ∧ i ∈ ((cfg1.win 5).blk t).view.set := by
  have hi0 : (i 0).val < 32 := (i 0).isLt
  have hi1 : (i 1).val < 16 := (i 1).isLt
  have hi2 : (i 2).val < 128 := (i 2).isLt
  let t : Fin cfg1.N := ⟨(i 0).val / 2, Nat.lt_of_lt_of_eq (by omega) N_1.symm⟩
  have ht : t.val = (i 0).val / 2 := rfl
  obtain ⟨i0, i1, i2⟩ := (blockIndex t).2.2.2.2.2
  refine ⟨t, flush1_5 t, ?_⟩
  rw [mem_pairBlock]
  intro a
  match a with
  | ⟨0, _⟩ => show win1_5.index t (0 : Fin 3) * 2 ≤ (i 0).val ∧ (i 0).val < win1_5.index t (0 : Fin 3) * 2 + 2; rw [i0, ht]; omega
  | ⟨1, _⟩ => show win1_5.index t (1 : Fin 3) * 16 ≤ (i 1).val ∧ (i 1).val < win1_5.index t (1 : Fin 3) * 16 + 16; rw [i1]; omega
  | ⟨2, _⟩ => show win1_5.index t (2 : Fin 3) * 128 ≤ (i 2).val ∧ (i 2).val < win1_5.index t (2 : Fin 3) * 128 + 128; rw [i2]; omega

/-- THE ARRAY after the last pair is the attention of every head. -/
theorem attnArray (c : Dev nD) : (dat1 (F := Ideal) V c).arrAt 5 cfg1.N = attnAll V c :=
  (dat1 (F := Ideal) V c).arrAt_eq_of_cover 5 (attnAll V c) (fun t _ => flushedAttn V c t) pairs_cover

/-- The result at (h, m, d): the attention of head h, query row m, lane d over the queries and the two caches with
    positions 2048 … 2063 replaced by the new rows. -/
theorem final1 (c : Dev nD) (h : Fin 32) (m : Fin 16) (d : Fin 128) :
    (dat1 (F := Ideal) V c).arrAt 5 cfg1.N (ix3 h m d)
      = Cert.Spec.attn (fun h m e => V c main_v5 (ix3 h m e))
          (Cert.Spec.upd (fun h s e => V c main_arg2 (ix3 h s e)) (fun h m e => V c main_v7 (ix3 h m e)))
          (Cert.Spec.upd (fun h s e => V c main_arg3 (ix3 h s e)) (fun h m e => V c main_v9 (ix3 h m e))) h m d := by
  rw [attnArray]
  rfl

end Cert.KernelIdeal.Hand

end
-- ==== Proof.RefIsG.lean ====
/-
  The reference program's result, read index by index on the extended reals, is the function G of the shared
  specification.

  The reference is a chain of host operations: X · W; its three column bands of width 4096, each reshaped to
  [row, head, lane] and transposed to [head, row, lane]; the two caches with the sixteen positions from 2048 on
  replaced by the new key and value rows; the 128-term inner products of every query row against every cached key;
  their exponentials; the exponentials' sums; the quotients; the 4096-term weighted sums of the cached values; and the
  layout back to [row, head · 128 + lane].  Each stage but the two replacements reads one element of its result from
  elements of its operands at computed indices; the replacement is a fold over the update's positions, each landing at
  position 2048 + its own on the middle axis, so an element of the result is the update's where the middle coordinate is
  in [2048, 2064) and the cache's elsewhere.
-/
import proofs.«162865_j31731218382925_2_alg».proof.Proof.Gen.ReferenceIdeal.Read
import proofs.«162865_j31731218382925_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## A replacing scatter, read at an index -/

section Fold

variable {ι κ β : Type}

/-- A left fold of steps each of which overwrites the position `g n` (when there is one) with `v n` and leaves every
    other position alone: at a position `p`, if every step that lands on `p` writes the same value `w`, the result
    is `w`, or no step lands on `p` and the result is the initial one. -/
theorem foldl_overwrite (g : κ → Option ι) (v : κ → β) (step : (ι → β) → κ → (ι → β)) (p : ι)
    (hit : ∀ r n, g n = some p → step r n p = v n) (miss : ∀ r n, g n ≠ some p → step r n p = r p)
    (r : ι → β) (w : β) (L : List κ) (hw : ∀ n ∈ L, g n = some p → v n = w) :
    L.foldl step r p = w ∨ (L.foldl step r p = r p ∧ ∀ n ∈ L, g n ≠ some p) := by
  induction L using List.reverseRecOn with
  | nil => exact Or.inr ⟨rfl, fun n hn => absurd hn (List.not_mem_nil)⟩
  | append_singleton L n ih =>
    rw [List.foldl_append, List.foldl_cons, List.foldl_nil]
    by_cases hn : g n = some p
    · exact Or.inl ((hit _ _ hn).trans (hw n (List.mem_append_right _ (List.mem_singleton_self n)) hn))
    · rw [miss _ _ hn]
      rcases ih (fun m hm => hw m (List.mem_append_left _ hm)) with h | ⟨h, hnone⟩
      · exact Or.inl h
      · refine Or.inr ⟨h, fun m hm => ?_⟩
        rcases List.mem_append.1 hm with hm | hm
        · exact hnone m hm
        · rw [List.mem_singleton.1 hm]; exact hn

end Fold

section Scatter

variable {s si u : Shape} {α : Type} {w : Nat}

/-- A scatter whose body returns the update, at one position: either every update index landing there carries the
    value `c` and the result is `c`, or none lands there and the result is the operand's element. -/
theorem scatter_replace_cases (d : ScatterDims s si u) (x : s.Idx → α) (idx : IVec si w) (upd : u.Idx → α) (p : s.Idx)
    (c : α) (hc : ∀ j, d.resultIdx? j idx = some p → upd j = c) :
    Host.scatter d (fun _ b => b) x idx upd p = c ∨
      (Host.scatter d (fun _ b => b) x idx upd p = x p ∧ ∀ j, d.resultIdx? j idx ≠ some p) := by
  unfold Host.scatter
  rcases foldl_overwrite (fun n : Fin u.numel => d.resultIdx? (u.rowMajor.symm n) idx) (fun n => upd (u.rowMajor.symm n))
      (fun (r : s.Idx → α) (n : Fin u.numel) =>
        match d.resultIdx? (u.rowMajor.symm n) idx with
        | some i => fun i' => if i' = i then (fun _ b => b) (r i) (upd (u.rowMajor.symm n)) else r i'
        | none => r) p
      (fun r n hn => by
        show (match d.resultIdx? (u.rowMajor.symm n) idx with
          | some i => fun i' => if i' = i then (fun _ b => b) (r i) (upd (u.rowMajor.symm n)) else r i'
          | none => r) p = upd (u.rowMajor.symm n)
        rw [show d.resultIdx? (u.rowMajor.symm n) idx = some p from hn]
        exact if_pos rfl)
      (fun r n hn => by
        show (match d.resultIdx? (u.rowMajor.symm n) idx with
          | some i => fun i' => if i' = i then (fun _ b => b) (r i) (upd (u.rowMajor.symm n)) else r i'
          | none => r) p = r p
        cases hg : d.resultIdx? (u.rowMajor.symm n) idx with
        | none => rfl
        | some i =>
          have hne : p ≠ i := fun e => hn (by show d.resultIdx? (u.rowMajor.symm n) idx = some p; rw [hg, e])
          exact if_neg hne)
      x c (List.finRange u.numel) (fun n _ hn => hc _ hn) with h | ⟨h, hnone⟩
  · exact Or.inl h
  · refine Or.inr ⟨h, fun j hj => hnone (u.rowMajor j) (List.mem_finRange _) ?_⟩
    show d.resultIdx? (u.rowMajor.symm (u.rowMajor j)) idx = some p
    rw [Equiv.symm_apply_apply]; exact hj

/-- At a position that exactly one update index lands on, the result is the update's element there. -/
theorem scatter_replace_hit (d : ScatterDims s si u) (x : s.Idx → α) (idx : IVec si w) (upd : u.Idx → α) (p : s.Idx)
    (j₀ : u.Idx) (h₀ : d.resultIdx? j₀ idx = some p) (huniq : ∀ j, d.resultIdx? j idx = some p → j = j₀) :
    Host.scatter d (fun _ b => b) x idx upd p = upd j₀ := by
  rcases scatter_replace_cases d x idx upd p (upd j₀) (fun j hj => by rw [huniq j hj]) with h | ⟨_, hnone⟩
  · exact h
  · exact absurd h₀ (hnone j₀)

/-- At a position no update index lands on, the result is the operand's element. -/
theorem scatter_replace_miss (d : ScatterDims s si u) (x : s.Idx → α) (idx : IVec si w) (upd : u.Idx → α) (p : s.Idx)
    (hnone : ∀ j, d.resultIdx? j idx ≠ some p) :
    Host.scatter d (fun _ b => b) x idx upd p = x p := by
  rcases scatter_replace_cases d x idx upd p (x p) (fun j hj => absurd hj (hnone j)) with h | ⟨h, _⟩
  · exact h
  · exact h

end Scatter

/-! ## The two cache replacements of the reference -/

section Cache

/-- The reference's scatter record: the update [head, row, lane] is written as one window whose start on the middle
    axis is the one scatter index. -/
local notation "SD" => scatter_S32x4096x128_S1_S32x16x128_012_n_1_0

/-- The scatter index: the constant 2048, broadcast to one element. -/
abbrev at2048 : IVec S1 32 := broadcastInDim S1 ![] bcast_S_S1 (constantI S_ 32 2048#32)

theorem start_outer (j : S32x16x128.Idx) (a : Fin S32x4096x128.rank) (ha : a.val ≠ 1) : ScatterDims.start SD j at2048 a = 0 := by
  unfold ScatterDims.start
  rw [dif_neg (by
    show ¬ a ∈ [(1 : Fin S32x4096x128.rank)]
    intro hm
    exact ha (congrArg Fin.val (List.mem_singleton.1 hm)))]

theorem start_mid (j : S32x16x128.Idx) (a : Fin S32x4096x128.rank) (ha : a.val = 1) : ScatterDims.start SD j at2048 a = 2048 := by
  obtain rfl : a = 1 := Fin.ext ha
  unfold ScatterDims.start
  rw [dif_pos (show (1 : Fin S32x4096x128.rank) ∈ (SD).scatterDimsToOperandDims by decide)]
  rfl

theorem window_0 (j : S32x16x128.Idx) (a : Fin S32x4096x128.rank) (ha : a.val = 0) : ScatterDims.window SD j a = (j 0).val := by
  obtain rfl : a = 0 := Fin.ext ha
  unfold ScatterDims.window
  rw [dif_pos (show (0 : Fin S32x4096x128.rank) ∈ (SD).sKept by decide)]
  rfl
theorem window_1 (j : S32x16x128.Idx) (a : Fin S32x4096x128.rank) (ha : a.val = 1) : ScatterDims.window SD j a = (j 1).val := by
  obtain rfl : a = 1 := Fin.ext ha
  unfold ScatterDims.window
  rw [dif_pos (show (1 : Fin S32x4096x128.rank) ∈ (SD).sKept by decide)]
  rfl
theorem window_2 (j : S32x16x128.Idx) (a : Fin S32x4096x128.rank) (ha : a.val = 2) : ScatterDims.window SD j a = (j 2).val := by
  obtain rfl : a = 2 := Fin.ext ha
  unfold ScatterDims.window
  rw [dif_pos (show (2 : Fin S32x4096x128.rank) ∈ (SD).sKept by decide)]
  rfl

/-- Update position (h, r, d) lands at cache position (h, 2048 + r, d): always inside the cache. -/
theorem resultIdx_eq (h : Fin 32) (r : Fin 16) (d : Fin 128) :
    ScatterDims.resultIdx? SD (ix3 h r d) at2048 = some (ix3 h ⟨2048 + r.val, by omega⟩ d) := by
  have h0 := h.isLt; have h1 := r.isLt; have h2 := d.isLt
  unfold ScatterDims.resultIdx?
  rw [dif_pos (fun a => by
    match a with
    | ⟨0, hh⟩ =>
      rw [start_outer (ix3 h r d) ⟨0, hh⟩ (by decide : (0 : Nat) ≠ 1), window_0 (ix3 h r d) ⟨0, hh⟩ rfl]
      show (0 : Int) ≤ 0 + (h.val : Int) ∧ 0 + (h.val : Int) < ((32 : Nat) : Int)
      omega
    | ⟨1, hh⟩ =>
      rw [start_mid (ix3 h r d) ⟨1, hh⟩ rfl, window_1 (ix3 h r d) ⟨1, hh⟩ rfl]
      show (0 : Int) ≤ 2048 + (r.val : Int) ∧ 2048 + (r.val : Int) < ((4096 : Nat) : Int)
      omega
    | ⟨2, hh⟩ =>
      rw [start_outer (ix3 h r d) ⟨2, hh⟩ (by decide : (2 : Nat) ≠ 1), window_2 (ix3 h r d) ⟨2, hh⟩ rfl]
      show (0 : Int) ≤ 0 + (d.val : Int) ∧ 0 + (d.val : Int) < ((128 : Nat) : Int)
      omega)]
  refine congrArg some (funext fun a => Fin.ext ?_)
  match a with
  | ⟨0, hh⟩ =>
    show (ScatterDims.start SD (ix3 h r d) at2048 ⟨0, hh⟩ + (ScatterDims.window SD (ix3 h r d) ⟨0, hh⟩ : Int)).toNat = h.val
    rw [start_outer (ix3 h r d) ⟨0, hh⟩ (by decide : (0 : Nat) ≠ 1), window_0 (ix3 h r d) ⟨0, hh⟩ rfl]
    show ((0 : Int) + (h.val : Int)).toNat = h.val
    omega
  | ⟨1, hh⟩ =>
    show (ScatterDims.start SD (ix3 h r d) at2048 ⟨1, hh⟩ + (ScatterDims.window SD (ix3 h r d) ⟨1, hh⟩ : Int)).toNat = 2048 + r.val
    rw [start_mid (ix3 h r d) ⟨1, hh⟩ rfl, window_1 (ix3 h r d) ⟨1, hh⟩ rfl]
    show ((2048 : Int) + (r.val : Int)).toNat = 2048 + r.val
    omega
  | ⟨2, hh⟩ =>
    show (ScatterDims.start SD (ix3 h r d) at2048 ⟨2, hh⟩ + (ScatterDims.window SD (ix3 h r d) ⟨2, hh⟩ : Int)).toNat = d.val
    rw [start_outer (ix3 h r d) ⟨2, hh⟩ (by decide : (2 : Nat) ≠ 1), window_2 (ix3 h r d) ⟨2, hh⟩ rfl]
    show ((0 : Int) + (d.val : Int)).toNat = d.val
    omega

/-- The replacement read at a position: the update's row where the middle coordinate is one of the sixteen from 2048
    on, the cache's element elsewhere. -/
theorem scatter_row_apply {α : Type} (C : S32x4096x128.Idx → α) (upd : S32x16x128.Idx → α) (h : Fin 32) (s : Fin 4096) (d : Fin 128) :
    Host.scatter SD (fun _ b => b) C at2048 upd (ix3 h s d)
      = if hs : 2048 ≤ s.val ∧ s.val < 2064 then upd (ix3 h ⟨s.val - 2048, by omega⟩ d) else C (ix3 h s d) := by
  by_cases hs : 2048 ≤ s.val ∧ s.val < 2064
  · rw [dif_pos hs]
    refine scatter_replace_hit SD C at2048 upd (ix3 h s d) (ix3 h ⟨s.val - 2048, by omega⟩ d) ?_ ?_
    · rw [resultIdx_eq]
      exact congrArg some (congrArg (fun t => ix3 h t d) (Fin.ext (by show 2048 + (s.val - 2048) = s.val; omega)))
    · intro j hj
      obtain ⟨h', r', d', rfl⟩ : ∃ (a : Fin 32) (b : Fin 16) (c : Fin 128), j = ix3 a b c := ⟨j 0, j 1, j 2, eq_ix3 j⟩
      rw [resultIdx_eq] at hj
      have e := Option.some.inj hj
      have e0 : h' = h := congrFun e 0
      have e1 : (⟨2048 + r'.val, by omega⟩ : Fin 4096) = s := congrFun e 1
      have e2 : d' = d := congrFun e 2
      subst e0; subst e2
      exact congrArg (fun t => ix3 h' t d') (Fin.ext (by
        show r'.val = s.val - 2048
        have := congrArg Fin.val e1
        simp only at this
        omega))
  · rw [dif_neg hs]
    refine scatter_replace_miss SD C at2048 upd (ix3 h s d) fun j hj => hs ?_
    obtain ⟨h', r', d', rfl⟩ : ∃ (a : Fin 32) (b : Fin 16) (c : Fin 128), j = ix3 a b c := ⟨j 0, j 1, j 2, eq_ix3 j⟩
    rw [resultIdx_eq] at hj
    have e1 : (⟨2048 + r'.val, by omega⟩ : Fin 4096) = s := congrFun (Option.some.inj hj) 1
    have := congrArg Fin.val e1
    have hr := r'.isLt
    simp only at this
    omega

end Cache

/-! ## The stages of the reference, read by coordinates -/

section Stages

variable (x0 : (⟨S16x4096, .f32⟩ : BufTy).Contents (Elt Ideal)) (x1 : (⟨S4096x12288, .f32⟩ : BufTy).Contents (Elt Ideal))
  (x2 x3 : (⟨S32x4096x128, .f32⟩ : BufTy).Contents (Elt Ideal))

/-- The first stage is X · W. -/
theorem v0_eq (m : Fin 16) (n : Fin 12288) : val_main_v0 (F := Ideal) x0 x1 (ix2 m n) = Cert.Spec.qkv x0 x1 m n := by
  rw [val_main_v0_apply]
  unfold Cert.Spec.qkv
  refine Finset.sum_congr rfl fun k _ => ?_
  have el : lidx_main_v0 (ix2 m n) k = ix2 m k := funext fun a => by match a with | ⟨0, _⟩ => rfl | ⟨1, _⟩ => rfl
  have er : ridx_main_v0 (ix2 m n) k = ix2 k n := funext fun a => by match a with | ⟨0, _⟩ => rfl | ⟨1, _⟩ => rfl
  rw [el, er]

theorem idx_v5 (h : Fin 32) (m : Fin 16) (d : Fin 128) : idx_main_v5 (ix3 h m d) = ix3 m h d :=
  funext fun a => by match a with | ⟨0, _⟩ => rfl | ⟨1, _⟩ => rfl | ⟨2, _⟩ => rfl
theorem idx_v4 (m : Fin 16) (h : Fin 32) (d : Fin 128) :
    idx_main_v4 (ix3 m h d) = ix2 m ⟨h.val * 128 + d.val, by have := h.isLt; have := d.isLt; omega⟩ :=
  funext fun a => Fin.ext (by
    have := m.isLt; have := h.isLt; have := d.isLt
    match a with
    | ⟨0, _⟩ => show ((m.val * 32 + h.val) * 128 + d.val) / 4096 = m.val; omega
    | ⟨1, _⟩ => show ((m.val * 32 + h.val) * 128 + d.val) % 4096 = h.val * 128 + d.val; omega)
theorem idx_v1 (m : Fin 16) (c : Fin 4096) :
    idx_main_v1 (ix2 m c) = ix2 m ⟨c.val, by have := c.isLt; omega⟩ :=
  funext fun a => by match a with | ⟨0, _⟩ => rfl | ⟨1, _⟩ => rfl
/-- The queries [head, row, lane] are the band of X · W from column 0: the reshape reads column head · 128 + lane. -/
theorem v5_eq (h : Fin 32) (m : Fin 16) (d : Fin 128) :
    val_main_v5 (F := Ideal) x0 x1 (ix3 h m d) = Cert.Spec.band x0 x1 0 (by omega) h m d := by
  rw [val_main_v5_apply, idx_v5, val_main_v4_apply, idx_v4, val_main_v1_apply, idx_v1, v0_eq]
  unfold Cert.Spec.band
  exact congrArg (Cert.Spec.qkv x0 x1 m) (Fin.ext (by
    show h.val * 128 + d.val = 0 + h.val * 128 + d.val
    omega))

theorem idx_v7 (h : Fin 32) (m : Fin 16) (d : Fin 128) : idx_main_v7 (ix3 h m d) = ix3 m h d :=
  funext fun a => by match a with | ⟨0, _⟩ => rfl | ⟨1, _⟩ => rfl | ⟨2, _⟩ => rfl
theorem idx_v6 (m : Fin 16) (h : Fin 32) (d : Fin 128) :
    idx_main_v6 (ix3 m h d) = ix2 m ⟨h.val * 128 + d.val, by have := h.isLt; have := d.isLt; omega⟩ :=
  funext fun a => Fin.ext (by
    have := m.isLt; have := h.isLt; have := d.isLt
    match a with
    | ⟨0, _⟩ => show ((m.val * 32 + h.val) * 128 + d.val) / 4096 = m.val; omega
    | ⟨1, _⟩ => show ((m.val * 32 + h.val) * 128 + d.val) % 4096 = h.val * 128 + d.val; omega)
theorem idx_v2 (m : Fin 16) (c : Fin 4096) :
    idx_main_v2 (ix2 m c) = ix2 m ⟨4096 + c.val, by have := c.isLt; omega⟩ :=
  funext fun a => by match a with | ⟨0, _⟩ => rfl | ⟨1, _⟩ => rfl
/-- The new key rows are the band from column 4096. -/
theorem v7_eq (h : Fin 32) (m : Fin 16) (d : Fin 128) :
    val_main_v7 (F := Ideal) x0 x1 (ix3 h m d) = Cert.Spec.band x0 x1 4096 (by omega) h m d := by
  rw [val_main_v7_apply, idx_v7, val_main_v6_apply, idx_v6, val_main_v2_apply, idx_v2, v0_eq]
  unfold Cert.Spec.band
  exact congrArg (Cert.Spec.qkv x0 x1 m) (Fin.ext (by
    show 4096 + (h.val * 128 + d.val) = 4096 + h.val * 128 + d.val
    omega))

theorem idx_v9 (h : Fin 32) (m : Fin 16) (d : Fin 128) : idx_main_v9 (ix3 h m d) = ix3 m h d :=
  funext fun a => by match a with | ⟨0, _⟩ => rfl | ⟨1, _⟩ => rfl | ⟨2, _⟩ => rfl
theorem idx_v8 (m : Fin 16) (h : Fin 32) (d : Fin 128) :
    idx_main_v8 (ix3 m h d) = ix2 m ⟨h.val * 128 + d.val, by have := h.isLt; have := d.isLt; omega⟩ :=
  funext fun a => Fin.ext (by
    have := m.isLt; have := h.isLt; have := d.isLt
    match a with
    | ⟨0, _⟩ => show ((m.val * 32 + h.val) * 128 + d.val) / 4096 = m.val; omega
    | ⟨1, _⟩ => show ((m.val * 32 + h.val) * 128 + d.val) % 4096 = h.val * 128 + d.val; omega)
theorem idx_v3 (m : Fin 16) (c : Fin 4096) :
    idx_main_v3 (ix2 m c) = ix2 m ⟨8192 + c.val, by have := c.isLt; omega⟩ :=
  funext fun a => by match a with | ⟨0, _⟩ => rfl | ⟨1, _⟩ => rfl
/-- The new value rows are the band from column 8192. -/
theorem v9_eq (h : Fin 32) (m : Fin 16) (d : Fin 128) :
    val_main_v9 (F := Ideal) x0 x1 (ix3 h m d) = Cert.Spec.band x0 x1 8192 (by omega) h m d := by
  rw [val_main_v9_apply, idx_v9, val_main_v8_apply, idx_v8, val_main_v3_apply, idx_v3, v0_eq]
  unfold Cert.Spec.band
  exact congrArg (Cert.Spec.qkv x0 x1 m) (Fin.ext (by
    show 8192 + (h.val * 128 + d.val) = 8192 + h.val * 128 + d.val
    omega))

/-- The queries, the cached keys and the cached values of the specification. -/
abbrev Qs : Fin 32 → Fin 16 → Fin 128 → EReal := Cert.Spec.band x0 x1 0 (by omega)
abbrev KCs : Fin 32 → Fin 4096 → Fin 128 → EReal := Cert.Spec.upd (Cert.Spec.coords3 x2) (Cert.Spec.band x0 x1 4096 (by omega))
abbrev VCs : Fin 32 → Fin 4096 → Fin 128 → EReal := Cert.Spec.upd (Cert.Spec.coords3 x3) (Cert.Spec.band x0 x1 8192 (by omega))

/-- The cached keys: the key cache with the new key rows at positions 2048 … 2063. -/
theorem v11_eq (h : Fin 32) (s : Fin 4096) (d : Fin 128) :
    val_main_v11 (F := Ideal) x0 x1 x2 (ix3 h s d) = KCs x0 x1 x2 h s d := by
  unfold val_main_v11
  show Host.scatter scatter_S32x4096x128_S1_S32x16x128_012_n_1_0 (fun _ b => b) x2 at2048 (val_main_v7 (F := Ideal) x0 x1) (ix3 h s d) = _
  rw [scatter_row_apply]
  unfold KCs Cert.Spec.upd Cert.Spec.coords3
  by_cases hs : 2048 ≤ s.val ∧ s.val < 2064
  · rw [dif_pos hs, dif_pos hs, v7_eq]
  · rw [dif_neg hs, dif_neg hs]

/-- The cached values: the value cache with the new value rows at positions 2048 … 2063. -/
theorem v13_eq (h : Fin 32) (s : Fin 4096) (d : Fin 128) :
    val_main_v13 (F := Ideal) x0 x1 x3 (ix3 h s d) = VCs x0 x1 x3 h s d := by
  unfold val_main_v13
  show Host.scatter scatter_S32x4096x128_S1_S32x16x128_012_n_1_0 (fun _ b => b) x3 at2048 (val_main_v9 (F := Ideal) x0 x1) (ix3 h s d) = _
  rw [scatter_row_apply]
  unfold VCs Cert.Spec.upd Cert.Spec.coords3
  by_cases hs : 2048 ≤ s.val ∧ s.val < 2064
  · rw [dif_pos hs, dif_pos hs, v9_eq]
  · rw [dif_neg hs, dif_neg hs]

/-- The scores. -/
theorem v14_eq (h : Fin 32) (m : Fin 16) (s : Fin 4096) :
    val_main_v14 (F := Ideal) x0 x1 x2 (ix3 h m s) = Cert.Spec.score (Qs x0 x1) (KCs x0 x1 x2) h m s := by
  rw [val_main_v14_apply]
  unfold Cert.Spec.score
  refine Finset.sum_congr rfl fun k _ => ?_
  have el : lidx_main_v14 (ix3 h m s) k = ix3 h m k := funext fun a => by match a with | ⟨0, _⟩ => rfl | ⟨1, _⟩ => rfl | ⟨2, _⟩ => rfl
  have er : ridx_main_v14 (ix3 h m s) k = ix3 h s k := funext fun a => by match a with | ⟨0, _⟩ => rfl | ⟨1, _⟩ => rfl | ⟨2, _⟩ => rfl
  rw [el, er, v5_eq, v11_eq]

/-- Their exponentials. -/
theorem v15_eq (h : Fin 32) (m : Fin 16) (s : Fin 4096) :
    val_main_v15 (F := Ideal) x0 x1 x2 (ix3 h m s) = Ideal.exp (Cert.Spec.score (Qs x0 x1) (KCs x0 x1 x2) h m s) := by
  rw [val_main_v15_apply, v14_eq, Ideal.hostUnary_exp_def]

/-- The exponentials' sums over the cached positions, begun at zero. -/
theorem v16_eq (h : Fin 32) (m : Fin 16) :
    val_main_v16 (F := Ideal) x0 x1 x2 (ix2 h m)
      = 0 + ∑ s : Fin 4096, Ideal.exp (Cert.Spec.score (Qs x0 x1) (KCs x0 x1 x2) h m s) := by
  rw [val_main_v16_apply, val_main_cst_apply, Ideal.ofBits_def, Ideal.ofBits_zero_f32]
  refine congrArg (0 + ·) (Finset.sum_congr rfl fun k _ => ?_)
  have e : idx_main_v16 (ix2 h m) k = ix3 h m k := funext fun a => by match a with | ⟨0, _⟩ => rfl | ⟨1, _⟩ => rfl | ⟨2, _⟩ => rfl
  rw [e, v15_eq]

/-- The weights. -/
theorem v19_eq (h : Fin 32) (m : Fin 16) (s : Fin 4096) :
    val_main_v19 (F := Ideal) x0 x1 x2 (ix3 h m s)
      = Ideal.div (Ideal.exp (Cert.Spec.score (Qs x0 x1) (KCs x0 x1 x2) h m s))
          (0 + ∑ s' : Fin 4096, Ideal.exp (Cert.Spec.score (Qs x0 x1) (KCs x0 x1 x2) h m s')) := by
  have e : idx_main_v17 (idx_main_v18 (ix3 h m s)) = ix2 h m := funext fun a => by match a with | ⟨0, _⟩ => rfl | ⟨1, _⟩ => rfl
  rw [val_main_v19_apply, Ideal.hostDivf_def, v15_eq, val_main_v18_apply, val_main_v17_apply, e, v16_eq]

/-- The weighted sums of the cached values. -/
theorem v20_eq (h : Fin 32) (m : Fin 16) (d : Fin 128) :
    val_main_v20 (F := Ideal) x0 x1 x2 x3 (ix3 h m d) = Cert.Spec.attn (Qs x0 x1) (KCs x0 x1 x2) (VCs x0 x1 x3) h m d := by
  rw [val_main_v20_apply]
  unfold Cert.Spec.attn
  refine Finset.sum_congr rfl fun k _ => ?_
  have el : lidx_main_v20 (ix3 h m d) k = ix3 h m k := funext fun a => by match a with | ⟨0, _⟩ => rfl | ⟨1, _⟩ => rfl | ⟨2, _⟩ => rfl
  have er : ridx_main_v20 (ix3 h m d) k = ix3 h k d := funext fun a => by match a with | ⟨0, _⟩ => rfl | ⟨1, _⟩ => rfl | ⟨2, _⟩ => rfl
  rw [el, er, v19_eq, v13_eq]

theorem idx_v21 (m : Fin 16) (h : Fin 32) (d : Fin 128) : idx_main_v21 (ix3 m h d) = ix3 h m d :=
  funext fun a => by match a with | ⟨0, _⟩ => rfl | ⟨1, _⟩ => rfl | ⟨2, _⟩ => rfl
theorem idx_v22 (m : Fin 16) (n : Fin 4096) :
    idx_main_v22 (ix2 m n) = ix3 m ⟨n.val / 128, by have := n.isLt; omega⟩ ⟨n.val % 128, Nat.mod_lt _ (by omega)⟩ :=
  funext fun a => Fin.ext (by
    have := m.isLt; have := n.isLt
    match a with
    | ⟨0, _⟩ => show (m.val * 4096 + n.val) / 4096 = m.val; omega
    | ⟨1, _⟩ => show (m.val * 4096 + n.val) / 128 % 32 = n.val / 128; omega
    | ⟨2, _⟩ => show (m.val * 4096 + n.val) % 128 = n.val % 128; omega)

/-- The reference program's result is the specification's function, index by index. -/
theorem ref_eq_G : Cert.ReferenceIdeal.Read.val_main_v22 x0 x1 x2 x3 = Cert.Spec.G x0 x1 x2 x3 := by
  funext i
  obtain ⟨m, n, rfl⟩ : ∃ (m : Fin 16) (n : Fin 4096), i = ix2 m n := ⟨i 0, i 1, eq_ix2 i⟩
  rw [val_main_v22_apply, idx_v22, val_main_v21_apply, idx_v21, v20_eq]
  rfl

end Stages

end Cert.ReferenceIdeal.RefValue

end
-- ==== Proof.lean ====
/-
  The five claims about a fused query / key / value projection followed by attention over an appended cache.

  The kernel program is two grid regions among layout operations: a matrix product X · W accumulated over
  sixteen tiles of the inner dimension into an output block that the first tile's step zeroes, and an
  attention region over pairs of heads whose body first copies the new key and value rows into positions
  2048 … 2063 of the staged cache blocks and then forms exp(q · kᵀ), divides by the row sums, and multiplies by
  the values. The reference does the same with one matrix product, two row updates and three contractions.

  Frames (both kernel programs, at their instances): each region's body is run once per control case over a
  symbolic grid point (Proof/K, Proof/KI: Region0, Region1), the regions and the layout stretches are composed
  by the launch theorem for a list of segments (Run), and every buffer that outlives the regions — the four
  arguments among them — ends at a value folded from the launch memory. The reference's frame is its run.
  The idealization rewrote nothing, so there is nothing to preserve.
  Equality at the ideal instance: the first region's array is X · W entry by entry (the sixteen partial sums
  regroup one 4096-term sum: Acc0, KI/Final0), the second region's array is the attention of the queries
  against the updated caches (Pay3, KI/Final1), the layout operations are read at an index (KI/Glue), so the
  kernel's result is the function `Cert.Spec.G` of the arguments (KI/Result); the reference's result term is
  the same function (RefIsG). No law of the extended reals beyond regrouping a finite sum is used, so the
  precondition is never opened.
-/
import proofs.«162865_j31731218382925_2_alg».proof.Defs
import proofs.«162865_j31731218382925_2_alg».proof.Proof.Gen.Kernel
import proofs.«162865_j31731218382925_2_alg».proof.Proof.Gen.KernelIdeal
import proofs.«162865_j31731218382925_2_alg».proof.Proof.Gen.ReferenceIdeal
import proofs.«162865_j31731218382925_2_alg».proof.Proof.Gen.ReferenceIdeal.Run
import proofs.«162865_j31731218382925_2_alg».proof.Proof.Gen.ReferenceIdeal.Read
import proofs.«162865_j31731218382925_2_alg».proof.Proof.Gen.Pre_finite_inputs
import proofs.«162865_j31731218382925_2_alg».proof.Proof.K.Run
import proofs.«162865_j31731218382925_2_alg».proof.Proof.KI.Result
import proofs.«162865_j31731218382925_2_alg».proof.Proof.KI.Final0
import proofs.«162865_j31731218382925_2_alg».proof.Proof.KI.Final1
import proofs.«162865_j31731218382925_2_alg».proof.Proof.RefIsG
import proofs.«162865_j31731218382925_2_alg».proof.Proof.Spec

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized one. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories agreeing on the four arguments both idealized programs end with the result array at
    `Cert.Spec.G` of those arguments, and with the arguments as launched. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v12 (by decide))).trans
          (Cert.KernelIdeal.Hand.W4_result m ρ Cert.KernelIdeal.Hand.final0 Cert.KernelIdeal.Hand.final1 c),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v22_eq (F := Ideal) _ _ _ _).trans ?_
    rw [Cert.ReferenceIdeal.RefValue.ref_eq_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
